-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S2x640000 : Shape := ⟨2, ![2, 640000]⟩
abbrev S128x128 : Shape := ⟨2, ![128, 128]⟩
abbrev S128 : Shape := ⟨1, ![128]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_arg7 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  main_v33

def fn {F : FTy → Type} [FloatOps F] (main_arg0 : FVec F S40000x128 .f32) (main_arg1 : IVec S2x640000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S40000x128 : Shape := ⟨2, ![40000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S40000 : Shape := ⟨1, ![40000]⟩
abbrev S640000x1 : Shape := ⟨2, ![640000, 1]⟩
abbrev S40000x1 : Shape := ⟨2, ![40000, 1]⟩
abbrev S640000x128 : Shape := ⟨2, ![640000, 128]⟩
abbrev S1x128 : Shape := ⟨2, ![1, 128]⟩
abbrev S5000x128 : Shape := ⟨2, ![5000, 128]⟩
abbrev S5000 : Shape := ⟨1, ![5000]⟩
abbrev S5000x1 : Shape := ⟨2, ![5000, 1]⟩

abbrev nBuf : Space → Nat
  | .hbm => 63
  | .vmem => 18
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S_, .f32⟩
  | .hbm, ⟨13, _⟩ => ⟨S640000, .f32⟩
  | .hbm, ⟨14, _⟩ => ⟨S_, .f32⟩
  | .hbm, ⟨15, _⟩ => ⟨S40000, .f32⟩
  | .hbm, ⟨16, _⟩ => ⟨S640000x1, .i32⟩
  | .hbm, ⟨17, _⟩ => ⟨S40000, .f32⟩
  | .hbm, ⟨18, _⟩ => ⟨S_, .f32⟩
  | .hbm, ⟨19, _⟩ => ⟨S40000, .f32⟩
  | .hbm, ⟨20, _⟩ => ⟨S40000, .f32⟩
  | .hbm, ⟨21, _⟩ => ⟨S_, .f32⟩
  | .hbm, ⟨22, _⟩ => ⟨S40000, .f32⟩
  | .hbm, ⟨23, _⟩ => ⟨S40000, .f32⟩
  | .hbm, ⟨24, _⟩ => ⟨S40000x1, .f32⟩
  | .hbm, ⟨25, _⟩ => ⟨S_, .i32⟩
  | .hbm, ⟨26, _⟩ => ⟨S640000, .i32⟩
  | .hbm, ⟨27, _⟩ => ⟨S640000, .i1⟩
  | .hbm, ⟨28, _⟩ => ⟨S_, .i32⟩
  | .hbm, ⟨29, _⟩ => ⟨S640000, .i32⟩
  | .hbm, ⟨30, _⟩ => ⟨S640000, .i32⟩
  | .hbm, ⟨31, _⟩ => ⟨S640000, .i32⟩
  | .hbm, ⟨32, _⟩ => ⟨S640000x1, .i32⟩
  | .hbm, ⟨33, _⟩ => ⟨S640000x128, .f32⟩
  | .hbm, ⟨34, _⟩ => ⟨S_, .f32⟩
  | .hbm, ⟨35, _⟩ => ⟨S40000x128, .f32⟩
  | .hbm, ⟨36, _⟩ => ⟨S640000x1, .i32⟩
  | .hbm, ⟨37, _⟩ => ⟨S40000x128, .f32⟩
  | .hbm, ⟨38, _⟩ => ⟨S40000x128, .f32⟩
  | .hbm, ⟨39, _⟩ => ⟨S40000x128, .f32⟩
  | .hbm, ⟨40, _⟩ => ⟨S128x128, .f32⟩
  | .hbm, ⟨41, _⟩ => ⟨S128x128, .f32⟩
  | .hbm, ⟨42, _⟩ => ⟨S1x128, .f32⟩
  | .hbm, ⟨43, _⟩ => ⟨S40000x128, .f32⟩
  | .hbm, ⟨44, _⟩ => ⟨S_, .i32⟩
  | .hbm, ⟨45, _⟩ => ⟨S640000, .i32⟩
  | .hbm, ⟨46, _⟩ => ⟨S640000, .i1⟩
  | .hbm, ⟨47, _⟩ => ⟨S_, .i32⟩
  | .hbm, ⟨48, _⟩ => ⟨S640000, .i32⟩
  | .hbm, ⟨49, _⟩ => ⟨S640000, .i32⟩
  | .hbm, ⟨50, _⟩ => ⟨S640000, .i32⟩
  | .hbm, ⟨51, _⟩ => ⟨S640000x1, .i32⟩
  | .hbm, ⟨52, _⟩ => ⟨S640000x128, .f32⟩
  | .hbm, ⟨53, _⟩ => ⟨S_, .f32⟩
  | .hbm, ⟨54, _⟩ => ⟨S40000x128, .f32⟩
  | .hbm, ⟨55, _⟩ => ⟨S640000x1, .i32⟩
  | .hbm, ⟨56, _⟩ => ⟨S40000x128, .f32⟩
  | .hbm, ⟨57, _⟩ => ⟨S40000x128, .f32⟩
  | .hbm, ⟨58, _⟩ => ⟨S40000x128, .f32⟩
  | .hbm, ⟨59, _⟩ => ⟨S128x128, .f32⟩
  | .hbm, ⟨60, _⟩ => ⟨S128x128, .f32⟩
  | .hbm, ⟨61, _⟩ => ⟨S1x128, .f32⟩
  | .hbm, ⟨62, _⟩ => ⟨S40000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S40000 : S_.BroadcastsInDim S40000 (![] : Fin 0 → Fin S40000.rank)
  bcast_S640000_S640000x1_0 : S640000.BroadcastsInDim S640000x1 (![0] : Fin 1 → Fin S640000x1.rank)
  bcast_S40000_S40000x1_0 : S40000.BroadcastsInDim S40000x1 (![0] : Fin 1 → Fin S40000x1.rank)
  bcast_S_S40000x128 : S_.BroadcastsInDim S40000x128 (![] : Fin 0 → Fin S40000x128.rank)
  bcast_S40000x1_S40000x128_0_1 : S40000x1.BroadcastsInDim S40000x128 (![0, 1] : Fin 2 → Fin S40000x128.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  scatter_S40000_S640000x1_S640000_n_0_0_1_wf : ScatterDims.WF S40000 S640000x1 S640000 [] [0] [0] 1
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S40000x128.size a
  hwx0_0 : ∀ i : grid0.Coords, EltTy.bits .f32 = 32 ∨ (Rect.block (s := S40000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S40000x128.size a
  hwx0_1 : ∀ i : grid0.Coords, EltTy.bits .f32 = 32 ∨ (Rect.block (s := S40000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S40000x128.size a
  hwx0_5 : ∀ i : grid0.Coords, EltTy.bits .f32 = 32 ∨ (Rect.block (s := S40000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S40000x128.size a
  hwx1_0 : ∀ i : grid1.Coords, EltTy.bits .f32 = 32 ∨ (Rect.block (s := S40000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S40000x128.size a
  hwx1_1 : ∀ i : grid1.Coords, EltTy.bits .f32 = 32 ∨ (Rect.block (s := S40000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S40000x128.size a
  hwx1_5 : ∀ i : grid1.Coords, EltTy.bits .f32 = 32 ∨ (Rect.block (s := S40000x128) S5000x128.size (cc1_transform_5 i) (hinb1_5 i)).WholeWords (EltTy.packing .f32)

variable [Facts₀]

def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v40) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S40000x128 : Shape := ⟨2, ![40000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S40000 : Shape := ⟨1, ![40000]⟩
abbrev S40000x1 : Shape := ⟨2, ![40000, 1]⟩
abbrev S1x128 : Shape := ⟨2, ![1, 128]⟩

abbrev nBuf : Space → Nat
  | .hbm => 101
  | .vmem => 0
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S_, .i32⟩
  | .hbm, ⟨13, _⟩ => ⟨S640000, .i32⟩
  | .hbm, ⟨14, _⟩ => ⟨S640000, .i1⟩
  | .hbm, ⟨15, _⟩ => ⟨S_, .i32⟩
  | .hbm, ⟨16, _⟩ => ⟨S640000, .i32⟩
  | .hbm, ⟨17, _⟩ => ⟨S640000, .i32⟩
  | .hbm, ⟨18, _⟩ => ⟨S640000, .i32⟩
  | .hbm, ⟨19, _⟩ => ⟨S640000x1, .i32⟩
  | .hbm, ⟨20, _⟩ => ⟨S640000x128, .f32⟩
  | .hbm, ⟨21, _⟩ => ⟨S_, .f32⟩
  | .hbm, ⟨22, _⟩ => ⟨S40000x128, .f32⟩
  | .hbm, ⟨23, _⟩ => ⟨S640000x1, .i32⟩
  | .hbm, ⟨24, _⟩ => ⟨S40000x128, .f32⟩
  | .hbm, ⟨25, _⟩ => ⟨S_, .f32⟩
  | .hbm, ⟨26, _⟩ => ⟨S640000, .f32⟩
  | .hbm, ⟨27, _⟩ => ⟨S_, .f32⟩
  | .hbm, ⟨28, _⟩ => ⟨S40000, .f32⟩
  | .hbm, ⟨29, _⟩ => ⟨S640000x1, .i32⟩
  | .hbm, ⟨30, _⟩ => ⟨S40000, .f32⟩
  | .hbm, ⟨31, _⟩ => ⟨S_, .f32⟩
  | .hbm, ⟨32, _⟩ => ⟨S40000, .f32⟩
  | .hbm, ⟨33, _⟩ => ⟨S40000, .f32⟩
  | .hbm, ⟨34, _⟩ => ⟨S40000x1, .f32⟩
  | .hbm, ⟨35, _⟩ => ⟨S40000x128, .f32⟩
  | .hbm, ⟨36, _⟩ => ⟨S40000x128, .f32⟩
  | .hbm, ⟨37, _⟩ => ⟨S128x128, .f32⟩
  | .hbm, ⟨38, _⟩ => ⟨S40000x128, .f32⟩
  | .hbm, ⟨39, _⟩ => ⟨S1x128, .f32⟩
  | .hbm, ⟨40, _⟩ => ⟨S40000x128, .f32⟩
  | .hbm, ⟨41, _⟩ => ⟨S40000x128, .f32⟩
  | .hbm, ⟨42, _⟩ => ⟨S128x128, .f32⟩
  | .hbm, ⟨43, _⟩ => ⟨S40000x128, .f32⟩
  | .hbm, ⟨44, _⟩ => ⟨S40000x128, .f32⟩
  | .hbm, ⟨45, _⟩ => ⟨S40000x128, .f32⟩
  | .hbm, ⟨46, _⟩ => ⟨S_, .f32⟩
  | .hbm, ⟨47, _⟩ => ⟨S40000, .f32⟩
  | .hbm, ⟨48, _⟩ => ⟨S40000x1, .f32⟩
  | .hbm, ⟨49, _⟩ => ⟨S40000x1, .f32⟩
  | .hbm, ⟨50, _⟩ => ⟨S_, .f32⟩
  | .hbm, ⟨51, _⟩ => ⟨S40000x1, .f32⟩
  | .hbm, ⟨52, _⟩ => ⟨S40000x1, .f32⟩
  | .hbm, ⟨53, _⟩ => ⟨S40000x128, .f32⟩
  | .hbm, ⟨54, _⟩ => ⟨S40000x128, .f32⟩
  | .hbm, ⟨55, _⟩ => ⟨S_, .f32⟩
  | .hbm, ⟨56, _⟩ => ⟨S40000x128, .f32⟩
  | .hbm, ⟨57, _⟩ => ⟨S40000x128, .f32⟩
  | .hbm, ⟨58, _⟩ => ⟨S_, .i32⟩
  | .hbm, ⟨59, _⟩ => ⟨S640000, .i32⟩
  | .hbm, ⟨60, _⟩ => ⟨S640000, .i1⟩
  | .hbm, ⟨61, _⟩ => ⟨S_, .i32⟩
  | .hbm, ⟨62, _⟩ => ⟨S640000, .i32⟩
  | .hbm, ⟨63, _⟩ => ⟨S640000, .i32⟩
  | .hbm, ⟨64, _⟩ => ⟨S640000, .i32⟩
  | .hbm, ⟨65, _⟩ => ⟨S640000x1, .i32⟩
  | .hbm, ⟨66, _⟩ => ⟨S640000x128, .f32⟩
  | .hbm, ⟨67, _⟩ => ⟨S_, .f32⟩
  | .hbm, ⟨68, _⟩ => ⟨S40000x128, .f32⟩
  | .hbm, ⟨69, _⟩ => ⟨S640000x1, .i32⟩
  | .hbm, ⟨70, _⟩ => ⟨S40000x128, .f32⟩
  | .hbm, ⟨71, _⟩ => ⟨S_, .f32⟩
  | .hbm, ⟨72, _⟩ => ⟨S640000, .f32⟩
  | .hbm, ⟨73, _⟩ => ⟨S_, .f32⟩
  | .hbm, ⟨74, _⟩ => ⟨S40000, .f32⟩
  | .hbm, ⟨75, _⟩ => ⟨S640000x1, .i32⟩
  | .hbm, ⟨76, _⟩ => ⟨S40000, .f32⟩
  | .hbm, ⟨77, _⟩ => ⟨S_, .f32⟩
  | .hbm, ⟨78, _⟩ => ⟨S40000, .f32⟩
  | .hbm, ⟨79, _⟩ => ⟨S40000, .f32⟩
  | .hbm, ⟨80, _⟩ => ⟨S40000x1, .f32⟩
  | .hbm, ⟨81, _⟩ => ⟨S40000x128, .f32⟩
  | .hbm, ⟨82, _⟩ => ⟨S40000x128, .f32⟩
  | .hbm, ⟨83, _⟩ => ⟨S128x128, .f32⟩
  | .hbm, ⟨84, _⟩ => ⟨S40000x128, .f32⟩
  | .hbm, ⟨85, _⟩ => ⟨S1x128, .f32⟩
  | .hbm, ⟨86, _⟩ => ⟨S40000x128, .f32⟩
  | .hbm, ⟨87, _⟩ => ⟨S40000x128, .f32⟩
  | .hbm, ⟨88, _⟩ => ⟨S128x128, .f32⟩
  | .hbm, ⟨89, _⟩ => ⟨S40000x128, .f32⟩
  | .hbm, ⟨90, _⟩ => ⟨S40000x128, .f32⟩
  | .hbm, ⟨91, _⟩ => ⟨S40000x128, .f32⟩
  | .hbm, ⟨92, _⟩ => ⟨S_, .f32⟩
  | .hbm, ⟨93, _⟩ => ⟨S40000, .f32⟩
  | .hbm, ⟨94, _⟩ => ⟨S40000x1, .f32⟩
  | .hbm, ⟨95, _⟩ => ⟨S40000x1, .f32⟩
  | .hbm, ⟨96, _⟩ => ⟨S_, .f32⟩
  | .hbm, ⟨97, _⟩ => ⟨S40000x1, .f32⟩
  | .hbm, ⟨98, _⟩ => ⟨S40000x1, .f32⟩
  | .hbm, ⟨99, _⟩ => ⟨S40000x128, .f32⟩
  | .hbm, ⟨100, _⟩ => ⟨S40000x128, .f32⟩
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_v0 : Ref sig .tc := ⟨.hbm, 45, rfl⟩
abbrev main_call0_cst : Ref sig .tc := ⟨.hbm, 46, rfl⟩
abbrev main_call0_v1 : Ref sig .tc := ⟨.hbm, 47, rfl⟩
abbrev main_call0_v2 : Ref sig .tc := ⟨.hbm, 48, rfl⟩
abbrev main_v31 : Ref sig .tc := ⟨.hbm, 49, rfl⟩
abbrev main_cst_4 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_call1_cst : Ref sig .tc := ⟨.hbm, 55, rfl⟩
abbrev main_call1_v0 : Ref sig .tc := ⟨.hbm, 56, rfl⟩
abbrev main_v36 : Ref sig .tc := ⟨.hbm, 57, rfl⟩
abbrev main_c_5 : Ref sig .tc := ⟨.hbm, 58, rfl⟩
abbrev main_v37 : Ref sig .tc := ⟨.hbm, 59, rfl⟩
abbrev main_v38 : Ref sig .tc := ⟨.hbm, 60, rfl⟩
abbrev main_c_6 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_7 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_8 : Ref sig .tc := ⟨.hbm, 71, rfl⟩
abbrev main_v47 : Ref sig .tc := ⟨.hbm, 72, rfl⟩
abbrev main_cst_9 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_10 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_call2_v0 : Ref sig .tc := ⟨.hbm, 91, rfl⟩
abbrev main_call2_cst : Ref sig .tc := ⟨.hbm, 92, rfl⟩
abbrev main_call2_v1 : Ref sig .tc := ⟨.hbm, 93, rfl⟩
abbrev main_call2_v2 : Ref sig .tc := ⟨.hbm, 94, rfl⟩
abbrev main_v64 : Ref sig .tc := ⟨.hbm, 95, rfl⟩
abbrev main_cst_11 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S40000x128 : S_.BroadcastsInDim S40000x128 (![] : Fin 0 → Fin S40000x128.rank)
  bcast_S_S40000 : S_.BroadcastsInDim S40000 (![] : Fin 0 → Fin S40000.rank)
  bcast_S40000_S40000x1_0 : S40000.BroadcastsInDim S40000x1 (![0] : Fin 1 → Fin S40000x1.rank)
  bcast_S40000x1_S40000x128_0_1 : S40000x1.BroadcastsInDim S40000x128 (![0, 1] : Fin 2 → Fin S40000x128.rank)
  transposes_S128x128_S128x128_1_0 : S128x128.Transposes [1, 0] S128x128
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  reducesTo_S40000x128_S40000_d1 : S40000x128.ReducesTo [1] S40000
  h_S_ : 0 < S_.numel
  bcast_S_S40000x1 : S_.BroadcastsInDim S40000x1 (![] : Fin 0 → Fin S40000x1.rank)
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  scatter_S40000_S640000x1_S640000_n_0_0_1_wf : ScatterDims.WF S40000 S640000x1 S640000 [] [0] [0] 1
  dot_S40000x128_S128x128_S40000x128_1_0_0_1_n_n_wf : DotDims.WF S40000x128 S128x128 S40000x128 [1] [0] [0] [1] [] []

variable [Facts₀]

def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf

class Facts : Prop extends Facts₀ where

variable [Facts]
-- ==== Proof.KRun.lean ====
/-
  The idealized kernel's whole run with its RESULT named: every weakly fair execution of @main terminates without a
  fault, the result buffer ends at what the last boundary's contents hold there, and the eight arguments end as
  launched. @main is four segments — a stretch of host operations, the first call, a second stretch, the second call —
  and the contents of every buffer at each boundary are a fold from the launch memory; the last boundary's contents at
  the result's buffer are the second call's result array after its eight write-backs.
-/
import proofs.«125775_j67353677136083_1_alg».proof.Proof.Gen.KernelIdeal.Frame

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main over its four segments, read at the result's buffer and at the arguments. -/
theorem run : θ_run defs (onTc (τ := τ) (main (F := F))) ⟨m, fun _ => 0, ρ⟩ (fun r => ∀ c : Dev nD,
      r.2.mem ((c.tc : Thread nD τ).loc main_v44) = W4 m ρ c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v44 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Whole

end
-- ==== Proof.LibDense.lean ====
/-
  GENERAL LEMMAS: one dense layer, and the rectifier after it, read at an index on extended reals — in the two spellings a
  kernel and a host program give them. Nothing here mentions a program; the extents R (rows), K (contracted) and N
  (columns) are arbitrary.

  * affine, relu: a dense layer and the rectifier on ONE row, as plain functions Fin K → EReal ↦ Fin N → EReal.
  * ix2_of_val, ix1_of_val: an index with known coordinates is the index built from them.
  * contraction_rows: a contraction of axis 1 of an [R, K] array with axis 0 of a [K, N] array (no batch axes), read at
    (p, j), is the sum over k : Fin K of l (p, k) · r (k, j); the dimension record enters only through four coordinate
    facts about its operand indices (for a printed record: two by rfl-style unfolding, two by
    DotDims.lhsIdx_val_of_single / rhsIdx_val_of_single) and the rank and extent of its contraction shape (both rfl).
  * tile_affine: the kernel's spelling — tpu.matmul of the activations and weights, each rounded to bf16 on the way in
    (the identity on extended reals), into a zero accumulator, plus a [1, N] bias row cast to its own shape and broadcast
    down the R rows — at (p, j) is affine of row p.
  * host_affine: the host's spelling — dot_general plus an [N] bias vector broadcast to [1, N] and then to [R, N] — at
    (p, j) is affine of row p.
  * relu_tile, relu_host: a maximum against the zero word, splat from a scalar (kernel) or broadcast from a rank-0
    constant (host), at (p, j) is relu of row p.
  No law of extended-real arithmetic beyond reindexing a finite sum is used, so none of these needs finite inputs.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.Dense

open Idealize.ShloMosaic Idealize.ShloMosaic.ValueIdx
open scoped BigOperators

/-- One dense layer on a row: j ↦ (∑ k, h k · W (k, j)) + b j. -/
def affine {K N : ℕ} (W : (⟨2, ![K, N]⟩ : Shape).Idx → EReal) (b : Fin N → EReal) (h : Fin K → EReal) : Fin N → EReal :=
  fun j => (∑ k : Fin K, h k * W (ix2 k j)) + b j

/-- The rectifier on a row: each entry's maximum with the value of the zero word (kept as the word: both programs
    print the same word, so it is never evaluated). -/
def relu {N : ℕ} (v : Fin N → EReal) : Fin N → EReal :=
  fun j => max (v j) (Ideal.ofBits .f32 0x00000000#32)

/-- A rank-2 index with known coordinates is the index built from them. -/
theorem ix2_of_val {n0 n1 : ℕ} (f : (⟨2, ![n0, n1]⟩ : Shape).Idx) (a : Fin n0) (b : Fin n1)
    (h0 : (f 0).val = a.val) (h1 : (f 1).val = b.val) : f = ix2 a b :=
  funext fun d => Fin.ext (by
    match d with
    | ⟨0, _⟩ => exact h0
    | ⟨1, _⟩ => exact h1)

/-- A rank-1 index with a known coordinate is the index built from it. -/
theorem ix1_of_val {n : ℕ} (f : (⟨1, ![n]⟩ : Shape).Idx) (a : Fin n) (h0 : (f 0).val = a.val) : f = ix1 a :=
  funext fun d => Fin.ext (by
    match d with
    | ⟨0, _⟩ => exact h0)

/-- A contraction of axis 1 of an [R, K] array with axis 0 of a [K, N] array (no batch axes), read at (p, j), is the
    sum over k : Fin K of l (p, k) · r (k, j): the record's operand indices are named by hl0 ... hr1, and its one-axis
    contraction index is Fin K (contrEquiv1). -/
theorem contraction_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (q : d.contr.Idx), (d.lhsIdx i q 0).val = (i 0).val)
    (hl1 : ∀ (i : (⟨2, ![R, N]⟩ : Shape).Idx) (q : d.contr.Idx), (d.lhsIdx i q 1).val = (q ⟨0, by omega⟩).val)
    (hr0 : ∀ (i : (⟨2, ![R, N]⟩ : Shape).Idx) (q : d.contr.Idx), (d.rhsIdx i q 0).val = (q ⟨0, by omega⟩).val)
    (hr1 : ∀ (i : (⟨2, ![R, N]⟩ : Shape).Idx) (q : d.contr.Idx), (d.rhsIdx i q 1).val = (i 1).val)
    (l : (⟨2, ![R, K]⟩ : Shape).Idx → EReal) (r : (⟨2, ![K, N]⟩ : Shape).Idx → EReal) (p : Fin R) (j : Fin N) :
    ∑ q : d.contr.Idx, l (d.lhsIdx (ix2 p j) q) * r (d.rhsIdx (ix2 p j) q) = ∑ k : Fin K, l (ix2 p k) * r (ix2 k j) := by
  rw [← Equiv.sum_comp (contrEquiv1 d K hrank hsize).symm]
  refine Finset.sum_congr rfl fun k _ => ?_
  have hk := contrEquiv1_symm_val d K hrank hsize k
  have el : d.lhsIdx (ix2 p j) ((contrEquiv1 d K hrank hsize).symm k) = ix2 p k :=
    ix2_of_val _ p k (hl0 _ _) ((hl1 _ _).trans hk)
  have er : d.rhsIdx (ix2 p j) ((contrEquiv1 d K hrank hsize).symm k) = ix2 k j :=
    ix2_of_val _ k j ((hr0 _ _).trans hk) (hr1 _ _)
  rw [el, er]

/-- ONE DENSE LAYER AS A KERNEL SPELLS IT, read at (p, j): the matrix unit's product of the activations and the weights
    (both rounded to bf16 on the way in: the identity here) into a zero accumulator, plus the bias, a [1, N] row cast to
    its own shape and broadcast down the R rows — is affine of the weights, the bias row and row p of the activations. -/
theorem tile_affine {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (q : d.contr.Idx), (d.lhsIdx i q 0).val = (i 0).val)
    (hl1 : ∀ (i : (⟨2, ![R, N]⟩ : Shape).Idx) (q : d.contr.Idx), (d.lhsIdx i q 1).val = (q ⟨0, by omega⟩).val)
    (hr0 : ∀ (i : (⟨2, ![R, N]⟩ : Shape).Idx) (q : d.contr.Idx), (d.rhsIdx i q 0).val = (q ⟨0, by omega⟩).val)
    (hr1 : ∀ (i : (⟨2, ![R, N]⟩ : Shape).Idx) (q : d.contr.Idx), (d.rhsIdx i q 1).val = (i 1).val)
    (h : FVec Ideal ⟨2, ![R, K]⟩ .f32) (W : FVec Ideal ⟨2, ![K, N]⟩ .f32) (b : FVec Ideal ⟨2, ![1, N]⟩ .f32)
    (hlt : FTy.bf16.bits < FTy.f32.bits)
    (hsc : (⟨2, ![1, N]⟩ : Shape).ShapeCasts ⟨2, ![1, N]⟩) (hbc : (⟨2, ![1, N]⟩ : Shape).Broadcasts ⟨2, ![R, N]⟩)
    (p : Fin R) (j : Fin N) :
    addf (matmul d none (truncf .bf16 h hlt) (truncf .bf16 W hlt) (constant (F := Ideal) ⟨2, ![R, N]⟩ .f32 0x00000000#32))
        (broadcastTo ⟨2, ![R, N]⟩ (shapeCast ⟨2, ![1, N]⟩ b hsc) hbc) (ix2 p j)
      = affine W (fun j => b (ix2 (0 : Fin 1) j)) (fun k => h (ix2 p k)) j := by
  rw [addf_apply, shapeCast_self, broadcastTo_1b_ab_apply]
  refine congrArg (· + b (ix2 (0 : Fin 1) j)) ?_
  refine (Ideal.matmul_constant_zero_apply d none (truncf .bf16 h hlt) (truncf .bf16 W hlt) (ix2 p j)).trans ?_
  exact contraction_rows d hrank hsize hl0 hl1 hr0 hr1 h W p j

/-- ONE DENSE LAYER AS THE HOST SPELLS IT, read at (p, j): dot_general of the activations and the weights plus the bias, an
    [N] vector broadcast to [1, N] and then down the R rows — is affine of the weights, the bias and row p. -/
theorem host_affine {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (q : d.contr.Idx), (d.lhsIdx i q 0).val = (i 0).val)
    (hl1 : ∀ (i : (⟨2, ![R, N]⟩ : Shape).Idx) (q : d.contr.Idx), (d.lhsIdx i q 1).val = (q ⟨0, by omega⟩).val)
    (hr0 : ∀ (i : (⟨2, ![R, N]⟩ : Shape).Idx) (q : d.contr.Idx), (d.rhsIdx i q 0).val = (q ⟨0, by omega⟩).val)
    (hr1 : ∀ (i : (⟨2, ![R, N]⟩ : Shape).Idx) (q : d.contr.Idx), (d.rhsIdx i q 1).val = (i 1).val)
    (h : FVec Ideal ⟨2, ![R, K]⟩ .f32) (W : FVec Ideal ⟨2, ![K, N]⟩ .f32) (b : FVec Ideal ⟨1, ![N]⟩ .f32)
    (hb1 : (⟨1, ![N]⟩ : Shape).BroadcastsInDim ⟨2, ![1, N]⟩ ![1])
    (hb2 : (⟨2, ![1, N]⟩ : Shape).BroadcastsInDim ⟨2, ![R, N]⟩ ![0, 1])
    (p : Fin R) (j : Fin N) :
    addf (Host.dotGeneral d none h W)
        (broadcastInDim ⟨2, ![R, N]⟩ ![0, 1] hb2 (broadcastInDim ⟨2, ![1, N]⟩ ![1] hb1 b)) (ix2 p j)
      = affine W (fun j => b (ix1 j)) (fun k => h (ix2 p k)) j := by
  rw [addf_apply]
  have e2 : broadcastInDim ⟨2, ![R, N]⟩ ![0, 1] hb2 (broadcastInDim ⟨2, ![1, N]⟩ ![1] hb1 b) (ix2 p j)
      = broadcastInDim ⟨2, ![1, N]⟩ ![1] hb1 b (ix2 (0 : Fin 1) j) :=
    broadcastInDim_apply _ hb2 _ (ix2 p j) (ix2 (0 : Fin 1) j) (fun a => match a with
      | ⟨0, _⟩ => by show (0 : ℕ) = if (1 : ℕ) = 1 then 0 else p.val; rw [if_pos rfl]
      | ⟨1, _⟩ => by
        show j.val = if N = 1 then 0 else j.val
        split
        · have := j.isLt; omega
        · rfl)
  have e1 : broadcastInDim ⟨2, ![1, N]⟩ ![1] hb1 b (ix2 (0 : Fin 1) j) = b (ix1 j) :=
    broadcastInDim_apply _ hb1 b (ix2 (0 : Fin 1) j) (ix1 j) (fun a => match a with
      | ⟨0, _⟩ => by
        show j.val = if N = 1 then 0 else j.val
        split
        · have := j.isLt; omega
        · rfl)
  rw [e2, e1]
  refine congrArg (· + b (ix1 j)) ?_
  refine (Ideal.dotGeneral_apply d none .single h W (ix2 p j)).trans ?_
  exact contraction_rows d hrank hsize hl0 hl1 hr0 hr1 h W p j

/-- The rectifier as a kernel spells it: a maximum against the splat of the zero word, read at (p, j), is the rectifier of
    row p at j. -/
theorem relu_tile {R N : ℕ} (a : FVec Ideal ⟨2, ![R, N]⟩ .f32) (p : Fin R) (j : Fin N) :
    maximumf a (broadcast ⟨2, ![R, N]⟩ (Scalar.ofBits (F := Ideal) .f32 0x00000000#32)) (ix2 p j)
      = relu (fun j => a (ix2 p j)) j := rfl

/-- The rectifier as the host spells it: a maximum against the zero constant, a scalar broadcast to the whole shape, read
    at (p, j), is the rectifier of row p at j. -/
theorem relu_host {R N : ℕ} (a : FVec Ideal ⟨2, ![R, N]⟩ .f32) (hb : (⟨0, ![]⟩ : Shape).BroadcastsInDim ⟨2, ![R, N]⟩ ![])
    (p : Fin R) (j : Fin N) :
    maximumf a (broadcastInDim ⟨2, ![R, N]⟩ ![] hb (constant (F := Ideal) ⟨0, ![]⟩ .f32 0x00000000#32)) (ix2 p j)
      = relu (fun j => a (ix2 p j)) j := by
  rw [maximumf_apply, broadcastInDim_apply _ hb _ (ix2 p j) ix0 (fun a => a.elim0)]
  rfl

end Cert.Dense

end
-- ==== Proof.Sage.lean ====
/-
  One GraphSAGE layer on extended reals, row by row, with no program in sight.

  A node's update is lin = a · WlT + b + x · WrT (a: the mean of its in-neighbours' features, x: its own features),
  then unitize: every entry divided by max(‖lin‖₂, ε), ε kept as its binary word. The rectifier of the first layer is
  Dense.relu. Also here: the one arithmetic law the two programs differ by — a sum times the reciprocal of
  max(count, 1) is the sum divided by max(count, 1), on every extended real, because max(count, 1) ≥ 1 is never zero.
-/
import proofs.«125775_j67353677136083_1_alg».proof.Proof.LibDense
import Idealize.ShloMosaic.Lib.IdealHost

noncomputable section

namespace Cert.Sage

open Idealize.ShloMosaic Idealize.ShloMosaic.ValueIdx
open scoped BigOperators

/-- The linear part of one node's update: j ↦ (∑ k, a k · WlT (k, j)) + b j + ∑ k, x k · WrT (k, j). -/
def lin (WlT WrT : (⟨2, ![128, 128]⟩ : Shape).Idx → EReal) (b a x : Fin 128 → EReal) : Fin 128 → EReal :=
  fun j => Cert.Dense.affine WlT b a j + ∑ k : Fin 128, x k * WrT (ix2 k j)

/-- A row divided by the larger of its Euclidean norm and ε. -/
def unitize (v : Fin 128 → EReal) : Fin 128 → EReal :=
  fun j => Ideal.div (v j) (max (Ideal.sqrt (∑ k : Fin 128, v k * v k)) (Ideal.ofBits .f32 0x2B8CBCCC#32))

/-- Row p of one layer before the rectifier, from whole arrays of aggregated and own features. -/
def normed (WlT WrT : (⟨2, ![128, 128]⟩ : Shape).Idx → EReal) (b : Fin 128 → EReal)
    (agg feat : (⟨2, ![40000, 128]⟩ : Shape).Idx → EReal) (p : Fin 40000) : Fin 128 → EReal :=
  unitize (lin WlT WrT b (fun k => agg (ix2 p k)) (fun k => feat (ix2 p k)))

/-- The first layer's whole output: rectified. -/
def hidden (WlT WrT : (⟨2, ![128, 128]⟩ : Shape).Idx → EReal) (b : Fin 128 → EReal)
    (agg feat : (⟨2, ![40000, 128]⟩ : Shape).Idx → EReal) : (⟨2, ![40000, 128]⟩ : Shape).Idx → EReal :=
  fun i => Cert.Dense.relu (normed WlT WrT b agg feat (i 0)) (i 1)

/-- The second layer's whole output: not rectified. -/
def final (WlT WrT : (⟨2, ![128, 128]⟩ : Shape).Idx → EReal) (b : Fin 128 → EReal)
    (agg feat : (⟨2, ![40000, 128]⟩ : Shape).Idx → EReal) : (⟨2, ![40000, 128]⟩ : Shape).Idx → EReal :=
  fun i => normed WlT WrT b agg feat (i 0) (i 1)

theorem hidden_ix2 (WlT WrT : (⟨2, ![128, 128]⟩ : Shape).Idx → EReal) (b : Fin 128 → EReal)
    (agg feat : (⟨2, ![40000, 128]⟩ : Shape).Idx → EReal) (p : Fin 40000) (j : Fin 128) :
    hidden WlT WrT b agg feat (ix2 p j) = Cert.Dense.relu (normed WlT WrT b agg feat p) j := rfl

theorem final_ix2 (WlT WrT : (⟨2, ![128, 128]⟩ : Shape).Idx → EReal) (b : Fin 128 → EReal)
    (agg feat : (⟨2, ![40000, 128]⟩ : Shape).Idx → EReal) (p : Fin 40000) (j : Fin 128) :
    final WlT WrT b agg feat (ix2 p j) = normed WlT WrT b agg feat p j := rfl

/-- The mean of the neighbours, two ways: the sum times 1 / max(count, 1) is the sum over max(count, 1). The divisor is
    at least one, so it is not zero and both sides are s · (max(c, 1))⁻¹ — for every extended real s and c. -/
theorem mul_recip_eq_div (s c : EReal) :
    s * Ideal.div (Ideal.ofBits .f32 0x3F800000#32) (max c (Ideal.ofBits .f32 0x3F800000#32))
      = Ideal.div s (max c (Ideal.ofBits .f32 0x3F800000#32)) := by
  rw [Ideal.ofBits_one_f32]
  have h : max c (1 : EReal) ≠ 0 := (lt_of_lt_of_le zero_lt_one (le_max_right c 1)).ne'
  unfold Ideal.div
  rw [if_neg h, if_neg h, one_mul]

end Cert.Sage

end
-- ==== Proof.Graph.lean ====
/-
  The graph part both programs share, as functions of the edge list and a feature array, and the two spellings of the
  neighbourhood mean.

  The edge list is a [2, 640000] integer array: row 0 the sources, row 1 the destinations. A source index below zero
  is wrapped by 40000. nbrSum f adds row src(e) of f into row dst(e) for every edge e (a gather, then a scatter-add
  into zeros); count is the same scatter of ones, floorCount its maximum with one. The kernel's program multiplies
  nbrSum by 1 / floorCount (meanMul), the reference divides by floorCount (meanDiv): equal entry by entry, on all
  extended reals, because floorCount ≥ 1 is never zero (Sage.mul_recip_eq_div). Gather and scatter are never opened.
-/
import proofs.«125775_j67353677136083_1_alg».proof.Proof.Gen.KernelIdeal
import proofs.«125775_j67353677136083_1_alg».proof.Proof.Sage

noncomputable section

namespace Cert.KernelIdeal.Graph

open Cert.KernelIdeal Cert.KernelIdeal.Gen Idealize.ShloMosaic Idealize.ShloMosaic.ValueIdx

/-- Row 0 of the edge list: the source node of every edge. -/
def srcRow (x1 : (⟨S2x640000, .i32⟩ : BufTy).Contents (Elt Ideal)) : (⟨S640000, .i32⟩ : BufTy).Contents (Elt Ideal) :=
  shapeCast _ (extractStridedSlice S1x640000 ![0, 0] x1 slices_S2x640000_S1x640000_0_0) shapeCasts_S1x640000_S640000

/-- Row 1 of the edge list: the destination node of every edge. -/
def dstRow (x1 : (⟨S2x640000, .i32⟩ : BufTy).Contents (Elt Ideal)) : (⟨S640000, .i32⟩ : BufTy).Contents (Elt Ideal) :=
  shapeCast _ (extractStridedSlice S1x640000 ![1, 0] x1 slices_S2x640000_S1x640000_1_0) shapeCasts_S1x640000_S640000

/-- The sources as the gather's index column, a negative one wrapped by 40000. -/
def srcCol (s : (⟨S640000, .i32⟩ : BufTy).Contents (Elt Ideal)) : (⟨S640000x1, .i32⟩ : BufTy).Contents (Elt Ideal) :=
  broadcastInDim S640000x1 ![0] bcast_S640000_S640000x1_0
    (select (cmpi .slt s (broadcastInDim S640000 ![] bcast_S_S640000 (constantI S_ 32 0#32)))
      (addi s (broadcastInDim S640000 ![] bcast_S_S640000 (constantI S_ 32 40000#32))) s)

/-- The destinations as the scatter's index column. -/
def dstCol (d : (⟨S640000, .i32⟩ : BufTy).Contents (Elt Ideal)) : (⟨S640000x1, .i32⟩ : BufTy).Contents (Elt Ideal) :=
  broadcastInDim S640000x1 ![0] bcast_S640000_S640000x1_0 d

/-- Every node's sum of its in-neighbours' feature rows. -/
def nbrSum (s d : (⟨S640000, .i32⟩ : BufTy).Contents (Elt Ideal)) (f : FVec Ideal S40000x128 .f32) : FVec Ideal S40000x128 .f32 :=
  Host.scatterAdd (F := Ideal) scatter_S40000x128_S640000x1_S640000x128_1_0_0_1
    (broadcastInDim S40000x128 ![] bcast_S_S40000x128 (constant (F := Ideal) S_ .f32 0x00000000#32)) (dstCol d)
    (Host.gather gather_S40000x128_S640000x1_S640000x128_1_0_n_n_0_1_1128 f (srcCol s))

/-- Every node's number of in-edges: a scatter-add of ones. -/
def count (d : (⟨S640000, .i32⟩ : BufTy).Contents (Elt Ideal)) : FVec Ideal S40000 .f32 :=
  Host.scatterAdd (F := Ideal) scatter_S40000_S640000x1_S640000_n_0_0_1
    (broadcastInDim S40000 ![] bcast_S_S40000 (constant (F := Ideal) S_ .f32 0x00000000#32)) (dstCol d)
    (broadcastInDim S640000 ![] bcast_S_S640000 (constant (F := Ideal) S_ .f32 0x3F800000#32))

/-- The number of in-edges, floored at one. -/
def floorCount (d : (⟨S640000, .i32⟩ : BufTy).Contents (Elt Ideal)) : FVec Ideal S40000 .f32 :=
  maximumf (count d) (broadcastInDim S40000 ![] bcast_S_S40000 (constant (F := Ideal) S_ .f32 0x3F800000#32))

/-- One over the floored count, as a column. -/
def recipCol (d : (⟨S640000, .i32⟩ : BufTy).Contents (Elt Ideal)) : FVec Ideal S40000x1 .f32 :=
  broadcastInDim S40000x1 ![0] bcast_S40000_S40000x1_0
    (Host.divf (F := Ideal) (broadcastInDim S40000 ![] bcast_S_S40000 (constant (F := Ideal) S_ .f32 0x3F800000#32)) (floorCount d))

/-- The neighbourhood mean as the kernel's program spells it: the sum times the reciprocal column spread over the lanes. -/
def meanMul (s d : (⟨S640000, .i32⟩ : BufTy).Contents (Elt Ideal)) (f : FVec Ideal S40000x128 .f32) : FVec Ideal S40000x128 .f32 :=
  mulf (nbrSum s d f) (broadcastInDim S40000x128 ![0, 1] bcast_S40000x1_S40000x128_0_1 (recipCol d))

/-- The neighbourhood mean as the reference spells it: the sum over the floored count spread over the lanes. -/
def meanDiv (s d : (⟨S640000, .i32⟩ : BufTy).Contents (Elt Ideal)) (f : FVec Ideal S40000x128 .f32) : FVec Ideal S40000x128 .f32 :=
  Host.divf (F := Ideal) (nbrSum s d f)
    (broadcastInDim S40000x128 ![0, 1] bcast_S40000x1_S40000x128_0_1
      (broadcastInDim S40000x1 ![0] bcast_S40000_S40000x1_0 (floorCount d)))

/-- A column spread over the lanes reads, at (p, j), the column's entry of row p. -/
theorem spread_apply (v : FVec Ideal S40000x1 .f32) (p : Fin 40000) (j : Fin 128) :
    broadcastInDim S40000x128 ![0, 1] bcast_S40000x1_S40000x128_0_1 v (ix2 p j) = v (ix2 p (0 : Fin 1)) :=
  broadcastInDim_apply _ bcast_S40000x1_S40000x128_0_1 v (ix2 p j) (ix2 p (0 : Fin 1)) (fun a => match a with
    | ⟨0, _⟩ => by show p.val = if (40000 : ℕ) = 1 then 0 else p.val; rw [if_neg (by decide)]
    | ⟨1, _⟩ => by show (0 : ℕ) = if (1 : ℕ) = 1 then 0 else j.val; rw [if_pos rfl])

/-- A vector set up as a column reads, at (p, 0), the vector's entry p. -/
theorem column_apply (v : FVec Ideal S40000 .f32) (p : Fin 40000) :
    broadcastInDim S40000x1 ![0] bcast_S40000_S40000x1_0 v (ix2 p (0 : Fin 1)) = v (ix1 p) :=
  broadcastInDim_apply _ bcast_S40000_S40000x1_0 v (ix2 p (0 : Fin 1)) (ix1 p) (fun a => match a with
    | ⟨0, _⟩ => by show p.val = if (40000 : ℕ) = 1 then 0 else p.val; rw [if_neg (by decide)])

/-- The floored count is the maximum of something with the word of one. -/
theorem floorCount_apply (d : (⟨S640000, .i32⟩ : BufTy).Contents (Elt Ideal)) (p : Fin 40000) :
    floorCount d (ix1 p) = max (count d (ix1 p)) (Ideal.ofBits .f32 0x3F800000#32) := by
  unfold floorCount
  rw [maximumf_apply, broadcastInDim_scalar_apply, constant_apply]

/-- The two spellings of the mean are one array. -/
theorem mean_eq (s d : (⟨S640000, .i32⟩ : BufTy).Contents (Elt Ideal)) (f : FVec Ideal S40000x128 .f32) : meanMul s d f = meanDiv s d f := by
  funext i
  obtain ⟨p, j, rfl⟩ : ∃ (p : Fin 40000) (j : Fin 128), i = ix2 p j := ⟨i 0, i 1, eq_ix2 i⟩
  unfold meanMul meanDiv recipCol
  rw [mulf_apply, hostDivf_apply, spread_apply, spread_apply, column_apply, column_apply, hostDivf_apply,
    broadcastInDim_scalar_apply, constant_apply, floorCount_apply]
  exact Cert.Sage.mul_recip_eq_div _ _

end Cert.KernelIdeal.Graph

end
-- ==== Proof.LibLayout.lean ====
/-
  Layout operations read at an index given by coordinates: the forms a row-wise normalization meets and the
  library does not yet have.

  * a column of row statistics: a vector `[a]` cast to `[a, 1]` (`keepdims`), and that column broadcast back over
    the `b` lanes of every row, `[a, 1] → [a, b]`;
  * one matrix broadcast over a new leading axis, `[1, b, c] → [a, b, c]`;
  * the rows of a `[4096, 768]` block regrouped as `[4, 1024, 768]` and back: row `r` is group `r / 1024`,
    member `r % 1024`, because both arrays list their entries in the same row-major order;
  * a sum over the lane axis of a matrix, read at row `r`: the sum over `k` of the entries `(r, k)`.
-/
import Idealize.ShloMosaic.Lib.ValueLayout
import Idealize.ShloMosaic.PureOps.Ideal.Laws

noncomputable section

namespace Cert.LibLayout

open Idealize.ShloMosaic Idealize.ShloMosaic.ValueIdx

variable {α : Type}

/-- An `[a]` vector cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` lanes reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- One `[1, b, c]` matrix broadcast over a leading axis of `a` copies reads, at `(p, q, r)`, the matrix at `(q, r)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ v h (ix3 p q r) = v (ix3 (0 : Fin 1) q r) := by
  refine broadcastTo_apply v h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

/-- The 4096 rows regrouped as 4 groups of 1024: entry `(g, n, k)` of the regrouped array is row `g · 1024 + n`. -/
theorem shapeCast_split_apply (x : (⟨2, ![4096, 768]⟩ : Shape).Idx → α)
    (h : (⟨2, ![4096, 768]⟩ : Shape).ShapeCasts ⟨3, ![4, 1024, 768]⟩) (g : Fin 4) (n : Fin 1024) (k : Fin 768) :
    shapeCast ⟨3, ![4, 1024, 768]⟩ x h (ix3 g n k) = x (ix2 (⟨g.val * 1024 + n.val, by omega⟩ : Fin 4096) k) :=
  shapeCast_apply x h _ _ (by
    rw [Shape.rowMajor_val_two, Shape.rowMajor_val_three]
    rfl)

/-- The 4 groups of 1024 rows listed again as 4096 rows: row `r` is member `r % 1024` of group `r / 1024`. -/
theorem shapeCast_merge_apply (y : (⟨3, ![4, 1024, 768]⟩ : Shape).Idx → α)
    (h : (⟨3, ![4, 1024, 768]⟩ : Shape).ShapeCasts ⟨2, ![4096, 768]⟩) (r : Fin 4096) (k : Fin 768) :
    shapeCast ⟨2, ![4096, 768]⟩ y h (ix2 r k)
      = y (ix3 (⟨r.val / 1024, by omega⟩ : Fin 4) (⟨r.val % 1024, by omega⟩ : Fin 1024) k) :=
  shapeCast_apply y h _ _ (by
    rw [Shape.rowMajor_val_two, Shape.rowMajor_val_three]
    show (r.val / 1024 * 1024 + r.val % 1024) * 768 + k.val = r.val * 768 + k.val
    omega)

/-- Over row `r` of a matrix, the index with lane `k` put back on the summed axis is `(r, k)`. -/
theorem lift_row {a b : ℕ} (h : Shape.Reduces ⟨2, ![a, b]⟩ [1] ⟨1, ![a]⟩) (r : Fin a) (k : Fin b) :
    h.lift (ix1 r) k = ix2 r k := by
  funext c
  refine Fin.ext ?_
  match c with
  | ⟨0, _⟩ => rfl
  | ⟨1, _⟩ => rfl

/-- A float sum over the lane axis of a matrix, read at row `r` at the exact instance: the sum of the row's entries. -/
theorem laneSum_apply {a b : ℕ} (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) :=
  (Ideal.multiReduction_add_single v 0x00000000#32 h hφ hacc (ix1 r)).trans
    (Finset.sum_congr rfl fun k _ => congrArg v (lift_row h r k))

end Cert.LibLayout

end
-- ==== Proof.KTile.lean ====
/-
  What one run of the kernel body stores, read at row p and lane j of its 5000-row tile: the row's linear part
  (two matrix-unit products into zero accumulators and the bias row), divided by the larger of the row's Euclidean
  norm and ε — and, in the first layer only, rectified. Both bodies are the same tree up to identity casts.
-/
import proofs.«125775_j67353677136083_1_alg».proof.Proof.Gen.KernelIdeal.Skeleton
import proofs.«125775_j67353677136083_1_alg».proof.Proof.Sage
import proofs.«125775_j67353677136083_1_alg».proof.Proof.LibLayout

noncomputable section

namespace Cert.KernelIdeal.Tile

open Cert.KernelIdeal Cert.KernelIdeal.Gen Idealize.ShloMosaic Idealize.ShloMosaic.ValueIdx
open scoped BigOperators

/-- The body's contraction record contracts axis 1 of the tile with axis 0 of the weights: its operand indices. -/
theorem dl0 (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem dl1 (i : S5000x128.Idx) (q : dot_S5000x128_S128x128_S5000x128_1_0_0_1_n_n.contr.Idx) : (dot_S5000x128_S128x128_S5000x128_1_0_0_1_n_n.lhsIdx i q 1).val = (q ⟨0, by decide⟩).val :=
  dot_S5000x128_S128x128_S5000x128_1_0_0_1_n_n.lhsIdx_val_of_single rfl i q
theorem dr0 (i : S5000x128.Idx) (q : dot_S5000x128_S128x128_S5000x128_1_0_0_1_n_n.contr.Idx) : (dot_S5000x128_S128x128_S5000x128_1_0_0_1_n_n.rhsIdx i q 0).val = (q ⟨0, by decide⟩).val :=
  dot_S5000x128_S128x128_S5000x128_1_0_0_1_n_n.rhsIdx_val_of_single rfl i q
theorem dr1 (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The linear part of the tile: aggregated rows times WlT, plus the bias row, plus own rows times WrT. -/
def pre (x0 x1 : FVec Ideal S5000x128 .f32) (x2 x4 : FVec Ideal S128x128 .f32) (x3 : FVec Ideal S1x128 .f32) : FVec Ideal S5000x128 .f32 :=
  addf (addf (matmul dot_S5000x128_S128x128_S5000x128_1_0_0_1_n_n none (truncf .bf16 x0 bitsLt_bf16_f32) (truncf .bf16 x2 bitsLt_bf16_f32) (constant (F := Ideal) S5000x128 .f32 0x00000000#32))
      (broadcastTo S5000x128 (shapeCast S1x128 x3 shapeCasts_S1x128_S1x128) broadcasts_S1x128_S5000x128))
    (matmul dot_S5000x128_S128x128_S5000x128_1_0_0_1_n_n none (truncf .bf16 x1 bitsLt_bf16_f32) (truncf .bf16 x4 bitsLt_bf16_f32) (constant (F := Ideal) S5000x128 .f32 0x00000000#32))

/-- Every row of a tile divided by the larger of its norm and ε, as the body spells it: square, sum the lanes, cast the
    sums to a column, root, floor at ε, spread the column over the lanes, divide. -/
def unitRows (v : FVec Ideal S5000x128 .f32) : FVec Ideal S5000x128 .f32 :=
  divf v (broadcastTo S5000x128
    (maximumf (sqrt (shapeCast S5000x1 (multiReduction (F := Ideal) .add [1] S5000 (mulf v v) 0x00000000#32 reduces_S5000x128_S5000 (.inl rfl) rfl) shapeCasts_S5000_S5000x1))
      (broadcast S5000x1 (Scalar.ofBits (F := Ideal) .f32 0x2B8CBCCC#32)))
    broadcasts_S5000x1_S5000x128)

theorem pre_apply (x0 x1 : FVec Ideal S5000x128 .f32) (x2 x4 : FVec Ideal S128x128 .f32) (x3 : FVec Ideal S1x128 .f32)
    (p : Fin 5000) (j : Fin 128) :
    pre x0 x1 x2 x4 x3 (ix2 p j)
      = Cert.Sage.lin x2 x4 (fun j => x3 (ix2 (0 : Fin 1) j)) (fun k => x0 (ix2 p k)) (fun k => x1 (ix2 p k)) j := by
  unfold pre Cert.Sage.lin
  rw [addf_apply]
  refine congrArg₂ (· + ·) ?_ ?_
  · exact Cert.Dense.tile_affine dot_S5000x128_S128x128_S5000x128_1_0_0_1_n_n rfl rfl dl0 dl1 dr0 dr1 x0 x2 x3 bitsLt_bf16_f32 shapeCasts_S1x128_S1x128
      broadcasts_S1x128_S5000x128 p j
  · refine (Ideal.matmul_constant_zero_apply dot_S5000x128_S128x128_S5000x128_1_0_0_1_n_n none (truncf .bf16 x1 bitsLt_bf16_f32) (truncf .bf16 x4 bitsLt_bf16_f32) (ix2 p j)).trans ?_
    exact Cert.Dense.contraction_rows dot_S5000x128_S128x128_S5000x128_1_0_0_1_n_n rfl rfl dl0 dl1 dr0 dr1 x1 x4 p j

theorem unitRows_apply (v : FVec Ideal S5000x128 .f32) (p : Fin 5000) (j : Fin 128) :
    unitRows v (ix2 p j) = Cert.Sage.unitize (fun k => v (ix2 p k)) j := by
  unfold unitRows Cert.Sage.unitize
  rw [divf_apply, Cert.LibLayout.broadcastTo_a1_ab_apply, maximumf_apply, broadcast_apply]
  refine congrArg (fun s => Ideal.div (v (ix2 p j)) (max (Ideal.sqrt s) (Ideal.ofBits .f32 0x2B8CBCCC#32))) ?_
  refine (Cert.LibLayout.shapeCast_a_a1_apply _ shapeCasts_S5000_S5000x1 p (0 : Fin 1)).trans ?_
  exact Cert.LibLayout.laneSum_apply (mulf v v) reduces_S5000x128_S5000 (.inl rfl) rfl p

/-- The first layer's body: the rectified normalized linear part. -/
theorem pay0_eq (x0 x1 : FVec Ideal S5000x128 .f32) (x2 x4 : FVec Ideal S128x128 .f32) (x3 : FVec Ideal S1x128 .f32) :
    k0_pay1 (F := Ideal) x0 x1 x2 x4 x3
      = maximumf (unitRows (pre x0 x1 x2 x4 x3)) (broadcast S5000x128 (Scalar.ofBits (F := Ideal) .f32 0x00000000#32)) := by
  unfold k0_pay1
  rw [shapeCast_self x0, shapeCast_self x2, shapeCast_self x4]
  rfl

/-- The second layer's body: the normalized linear part. -/
theorem pay1_eq (x0 x1 : FVec Ideal S5000x128 .f32) (x2 x4 : FVec Ideal S128x128 .f32) (x3 : FVec Ideal S1x128 .f32) :
    k1_pay1 (F := Ideal) x0 x1 x2 x4 x3 = unitRows (pre x0 x1 x2 x4 x3) := by
  unfold k1_pay1
  rw [shapeCast_self x0, shapeCast_self x1, shapeCast_self x2, shapeCast_self x4]
  rfl

theorem pay0_apply (x0 x1 : FVec Ideal S5000x128 .f32) (x2 x4 : FVec Ideal S128x128 .f32) (x3 : FVec Ideal S1x128 .f32)
    (p : Fin 5000) (j : Fin 128) :
    k0_pay1 (F := Ideal) x0 x1 x2 x4 x3 (ix2 p j)
      = Cert.Dense.relu (Cert.Sage.unitize (Cert.Sage.lin x2 x4 (fun j => x3 (ix2 (0 : Fin 1) j)) (fun k => x0 (ix2 p k)) (fun k => x1 (ix2 p k)))) j := by
  rw [pay0_eq]
  refine (Cert.Dense.relu_tile (unitRows (pre x0 x1 x2 x4 x3)) p j).trans ?_
  unfold Cert.Dense.relu
  dsimp only
  rw [unitRows_apply]
  refine congrArg (fun r : Fin 128 → EReal => max (Cert.Sage.unitize r j) (Ideal.ofBits .f32 0x00000000#32)) ?_
  exact funext fun k => pre_apply x0 x1 x2 x4 x3 p k

theorem pay1_apply (x0 x1 : FVec Ideal S5000x128 .f32) (x2 x4 : FVec Ideal S128x128 .f32) (x3 : FVec Ideal S1x128 .f32)
    (p : Fin 5000) (j : Fin 128) :
    k1_pay1 (F := Ideal) x0 x1 x2 x4 x3 (ix2 p j)
      = Cert.Sage.unitize (Cert.Sage.lin x2 x4 (fun j => x3 (ix2 (0 : Fin 1) j)) (fun k => x0 (ix2 p k)) (fun k => x1 (ix2 p k))) j := by
  rw [pay1_eq, unitRows_apply]
  refine congrArg (fun r : Fin 128 → EReal => Cert.Sage.unitize r j) ?_
  exact funext fun k => pre_apply x0 x1 x2 x4 x3 p k

end Cert.KernelIdeal.Tile

end
-- ==== Proof.KRegion0.lean ====
/-
  The array the first call leaves, from the arrays it finds (a parameter V: whatever the buffers hold when the call is
  entered). Grid point t stages rows 5000·t … 5000·t + 4999 of the aggregated features and of the node features, and
  the two weight matrices and the bias row whole; it writes back rows 5000·t … of the result. So what point t writes is
  block t of ONE whole-array function of the five arrays (flushed_eq); the eight blocks tile the 40000 rows (cover);
  hence the array after the call is that function (result).
-/
import proofs.«125775_j67353677136083_1_alg».proof.Proof.Gen.KernelIdeal.Frame
import proofs.«125775_j67353677136083_1_alg».proof.Proof.KTile
import Idealize.ShloMosaic.Lib.Pipeline.Value

noncomputable section

namespace Cert.KernelIdeal.Region0

open Cert.KernelIdeal Cert.KernelIdeal.Gen Cert.KernelIdeal.Tile Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the eight grid points: the row-tiled windows are at block (t, 0), the whole-array
    windows at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of point t's block of the aggregated features is row 5000·t + p of the array. -/
theorem blk_agg (c : Dev nD) (t : Fin cfg0.N) (p : Fin 5000) (k : Fin 128) (r : Fin 40000) (hr : r.val = t.val * 5000 + p.val) :
    (iblk0 V c 0 t : FVec Ideal S5000x128 .f32) (ix2 p k) = (V c main_v24 : FVec Ideal S40000x128 .f32) (ix2 r k) := by
  obtain ⟨e0, e1, -⟩ := idx_facts t
  unfold iblk0
  rw [View.read_apply]
  show V c main_v24 _ = V c main_v24 _
  refine congrArg (V c main_v24) (funext fun a => Fin.ext ?_)
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

/-- Row p of point t's block of the node features is row 5000·t + p of the array. -/
theorem blk_feat (c : Dev nD) (t : Fin cfg0.N) (p : Fin 5000) (k : Fin 128) (r : Fin 40000) (hr : r.val = t.val * 5000 + p.val) :
    (iblk0 V c 1 t : FVec Ideal S5000x128 .f32) (ix2 p k) = (V c main_arg0 : FVec Ideal S40000x128 .f32) (ix2 r k) := by
  obtain ⟨-, -, e0, e1, -⟩ := idx_facts t
  unfold iblk0
  rw [View.read_apply]
  show V c main_arg0 _ = V c main_arg0 _
  refine congrArg (V c main_arg0) (funext fun a => Fin.ext ?_)
  match a with
  | ⟨0, _⟩ => show win0_1.index t (0 : Fin 2) * 5000 + 1 * p.val = r.val; rw [e0, hr]; omega
  | ⟨1, _⟩ => show win0_1.index t (1 : Fin 2) * 128 + 1 * k.val = k.val; rw [e1]; omega

/-- The neighbour-path weights are staged whole. -/
theorem blk_wl (c : Dev nD) (t : Fin cfg0.N) :
    (iblk0 V c 2 t : FVec Ideal S128x128 .f32) = (V c main_v25 : FVec Ideal S128x128 .f32) := by
  obtain ⟨-, -, -, -, e0, e1, -⟩ := idx_facts t
  funext y
  unfold iblk0
  rw [View.read_apply]
  show V c main_v25 _ = V c main_v25 _
  refine congrArg (V c main_v25) (funext fun a => Fin.ext ?_)
  match a with
  | ⟨0, _⟩ => show win0_2.index t (0 : Fin 2) * 128 + 1 * (y 0).val = (y 0).val; rw [e0]; omega
  | ⟨1, _⟩ => show win0_2.index t (1 : Fin 2) * 128 + 1 * (y 1).val = (y 1).val; rw [e1]; omega

/-- The bias row is staged whole. -/
theorem blk_bias (c : Dev nD) (t : Fin cfg0.N) :
    (iblk0 V c 3 t : FVec Ideal S1x128 .f32) = (V c main_v27 : FVec Ideal S1x128 .f32) := by
  obtain ⟨-, -, -, -, -, -, e0, e1, -⟩ := idx_facts t
  funext y
  unfold iblk0
  rw [View.read_apply]
  show V c main_v27 _ = V c main_v27 _
  refine congrArg (V c main_v27) (funext fun a => Fin.ext ?_)
  match a with
  | ⟨0, _⟩ => show win0_3.index t (0 : Fin 2) * 1 + 1 * (y 0).val = (y 0).val; rw [e0]; omega
  | ⟨1, _⟩ => show win0_3.index t (1 : Fin 2) * 128 + 1 * (y 1).val = (y 1).val; rw [e1]; omega

/-- The root-path weights are staged whole. -/
theorem blk_wr (c : Dev nD) (t : Fin cfg0.N) :
    (iblk0 V c 4 t : FVec Ideal S128x128 .f32) = (V c main_v26 : FVec Ideal S128x128 .f32) := by
  obtain ⟨-, -, -, -, -, -, -, -, e0, e1, -⟩ := idx_facts t
  funext y
  unfold iblk0
  rw [View.read_apply]
  show V c main_v26 _ = V c main_v26 _
  refine congrArg (V c main_v26) (funext fun a => Fin.ext ?_)
  match a with
  | ⟨0, _⟩ => show win0_4.index t (0 : Fin 2) * 128 + 1 * (y 0).val = (y 0).val; rw [e0]; omega
  | ⟨1, _⟩ => show win0_4.index t (1 : Fin 2) * 128 + 1 * (y 1).val = (y 1).val; rw [e1]; omega

/-- Entry (p, q) of point t's result block sits at row 5000·t + p of the result array. -/
theorem emb_out (t : Fin cfg0.N) (p : Fin 5000) (q : Fin 128) (r : Fin 40000) (hr : r.val = t.val * 5000 + p.val) :
    (((cfg0.win 5).blk t).view.emb (ix2 p q) : S40000x128.Idx) = ix2 r q := by
  obtain ⟨-, -, -, -, -, -, -, -, -, -, e0, e1⟩ := idx_facts t
  refine funext fun a => Fin.ext ?_
  match a with
  | ⟨0, _⟩ => show win0_5.index t (0 : Fin 2) * 5000 + 1 * p.val = r.val; rw [e0, hr]; omega
  | ⟨1, _⟩ => show win0_5.index t (1 : Fin 2) * 128 + 1 * q.val = q.val; rw [e1]; omega

/-- The whole result as one function of the five arrays the call finds. -/
abbrev G (c : Dev nD) : S40000x128.Idx → EReal :=
  Cert.Sage.hidden (V c main_v25 : FVec Ideal S128x128 .f32) (V c main_v26 : FVec Ideal S128x128 .f32)
    (fun j => (V c main_v27 : FVec Ideal S1x128 .f32) (ix2 (0 : Fin 1) j))
    (V c main_v24 : FVec Ideal S40000x128 .f32) (V c main_arg0 : FVec Ideal S40000x128 .f32)

theorem lin_congr {WlT WlT' WrT WrT' : (⟨2, ![128, 128]⟩ : Shape).Idx → EReal} {b b' a a' x x' : Fin 128 → EReal}
    (h1 : WlT = WlT') (h2 : WrT = WrT') (h3 : b = b') (h4 : a = a') (h5 : x = x') :
    Cert.Sage.lin WlT WrT b a x = Cert.Sage.lin WlT' WrT' b' a' x' := by rw [h1, h2, h3, h4, h5]

/-- What point t writes back is block t of G. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  have hN : cfg0.N = 8 := N_0
  have hr : ((⟨t.val * 5000 + p.val, by have := t.isLt; have := p.isLt; omega⟩ : Fin 40000)).val = t.val * 5000 + p.val := rfl
  show k0_pay1 (F := Ideal) (iblk0 V c 0 t) (iblk0 V c 1 t) (iblk0 V c 2 t) (iblk0 V c 4 t) (iblk0 V c 3 t) (ix2 p q)
    = G V c (((cfg0.win 5).blk t).view.emb (ix2 p q))
  rw [emb_out t p q _ hr]
  unfold G
  rw [Cert.Sage.hidden_ix2]
  refine (pay0_apply (iblk0 V c 0 t) (iblk0 V c 1 t) (iblk0 V c 2 t) (iblk0 V c 4 t) (iblk0 V c 3 t) p q).trans ?_
  unfold Cert.Sage.normed
  refine congrArg (fun r : Fin 128 → EReal => Cert.Dense.relu (Cert.Sage.unitize r) q) ?_
  refine lin_congr (blk_wl V c t) (blk_wr V c t) ?_ ?_ ?_
  · exact funext fun j => congrFun (blk_bias V c t) (ix2 (0 : Fin 1) j)
  · exact funext fun k => blk_agg V c t p k _ hr
  · exact funext fun k => blk_feat V c t p k _ hr

/-- An index of the result array is in point t's block iff each coordinate is in the block's range on its axis. -/
theorem mem_blk (t : Fin cfg0.N) (i : S40000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v28).slice (win0_5.rect t)).set ↔ _
  rw [View.set_slice_whole, Rect.mem_set_unit]
  exact Iff.rfl

/-- Row r lies in the block of point r / 5000: the eight blocks tile the array. -/
theorem cover (i : S40000x128.Idx) : ∃ t : Fin cfg0.N, (cfg0.win 5).flush t = true ∧ i ∈ ((cfg0.win 5).blk t).view.set := by
  have hi0 : (i 0).val < 40000 := (i 0).isLt
  have hi1 : (i 1).val < 128 := (i 1).isLt
  have hN : cfg0.N = 8 := N_0
  have hlt : (i 0).val / 5000 < cfg0.N := by rw [hN]; omega
  obtain ⟨-, -, -, -, -, -, -, -, -, -, e0, e1⟩ := idx_facts ⟨(i 0).val / 5000, hlt⟩
  refine ⟨⟨(i 0).val / 5000, hlt⟩, flush0_5 _, ?_⟩
  rw [mem_blk]
  intro a
  match a with
  | ⟨0, _⟩ =>
    show win0_5.index ⟨(i 0).val / 5000, hlt⟩ (0 : Fin 2) * 5000 ≤ (i 0).val ∧ (i 0).val < win0_5.index ⟨(i 0).val / 5000, hlt⟩ (0 : Fin 2) * 5000 + 5000
    rw [e0]
    show (i 0).val / 5000 * 5000 ≤ (i 0).val ∧ (i 0).val < (i 0).val / 5000 * 5000 + 5000
    omega
  | ⟨1, _⟩ =>
    show win0_5.index ⟨(i 0).val / 5000, hlt⟩ (1 : Fin 2) * 128 ≤ (i 1).val ∧ (i 1).val < win0_5.index ⟨(i 0).val / 5000, hlt⟩ (1 : Fin 2) * 128 + 128
    rw [e1]
    omega

/-- The array after the call is G of the arrays it found. -/
theorem result (c : Dev nD) : (dat0 V c).arrAt 5 cfg0.N = G V c :=
  (dat0 V c).arrAt_eq_of_cover 5 (G V c) (fun t _ => flushed_eq V c t) cover

end Cert.KernelIdeal.Region0

end
-- ==== Proof.KRegion1.lean ====
/-
  The array the second call leaves, from the arrays it finds (a parameter V: whatever the buffers hold when the call is
  entered). Grid point t stages rows 5000·t … 5000·t + 4999 of the aggregated features and of the node features, and
  the two weight matrices and the bias row whole; it writes back rows 5000·t … of the result. So what point t writes is
  block t of ONE whole-array function of the five arrays (flushed_eq); the eight blocks tile the 40000 rows (cover);
  hence the array after the call is that function (result).
-/
import proofs.«125775_j67353677136083_1_alg».proof.Proof.Gen.KernelIdeal.Frame
import proofs.«125775_j67353677136083_1_alg».proof.Proof.KTile
import Idealize.ShloMosaic.Lib.Pipeline.Value

noncomputable section

namespace Cert.KernelIdeal.Region1

open Cert.KernelIdeal Cert.KernelIdeal.Gen Cert.KernelIdeal.Tile Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the eight grid points: the row-tiled windows are at block (t, 0), the whole-array
    windows at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row p of point t's block of the aggregated features is row 5000·t + p of the array. -/
theorem blk_agg (c : Dev nD) (t : Fin cfg1.N) (p : Fin 5000) (k : Fin 128) (r : Fin 40000) (hr : r.val = t.val * 5000 + p.val) :
    (iblk1 V c 0 t : FVec Ideal S5000x128 .f32) (ix2 p k) = (V c main_v40 : FVec Ideal S40000x128 .f32) (ix2 r k) := by
  obtain ⟨e0, e1, -⟩ := idx_facts t
  unfold iblk1
  rw [View.read_apply]
  show V c main_v40 _ = V c main_v40 _
  refine congrArg (V c main_v40) (funext fun a => Fin.ext ?_)
  match a with
  | ⟨0, _⟩ => show win1_0.index t (0 : Fin 2) * 5000 + 1 * p.val = r.val; rw [e0, hr]; omega
  | ⟨1, _⟩ => show win1_0.index t (1 : Fin 2) * 128 + 1 * k.val = k.val; rw [e1]; omega

/-- Row p of point t's block of the node features is row 5000·t + p of the array. -/
theorem blk_feat (c : Dev nD) (t : Fin cfg1.N) (p : Fin 5000) (k : Fin 128) (r : Fin 40000) (hr : r.val = t.val * 5000 + p.val) :
    (iblk1 V c 1 t : FVec Ideal S5000x128 .f32) (ix2 p k) = (V c main_v28 : FVec Ideal S40000x128 .f32) (ix2 r k) := by
  obtain ⟨-, -, e0, e1, -⟩ := idx_facts t
  unfold iblk1
  rw [View.read_apply]
  show V c main_v28 _ = V c main_v28 _
  refine congrArg (V c main_v28) (funext fun a => Fin.ext ?_)
  match a with
  | ⟨0, _⟩ => show win1_1.index t (0 : Fin 2) * 5000 + 1 * p.val = r.val; rw [e0, hr]; omega
  | ⟨1, _⟩ => show win1_1.index t (1 : Fin 2) * 128 + 1 * k.val = k.val; rw [e1]; omega

/-- The neighbour-path weights are staged whole. -/
theorem blk_wl (c : Dev nD) (t : Fin cfg1.N) :
    (iblk1 V c 2 t : FVec Ideal S128x128 .f32) = (V c main_v41 : FVec Ideal S128x128 .f32) := by
  obtain ⟨-, -, -, -, e0, e1, -⟩ := idx_facts t
  funext y
  unfold iblk1
  rw [View.read_apply]
  show V c main_v41 _ = V c main_v41 _
  refine congrArg (V c main_v41) (funext fun a => Fin.ext ?_)
  match a with
  | ⟨0, _⟩ => show win1_2.index t (0 : Fin 2) * 128 + 1 * (y 0).val = (y 0).val; rw [e0]; omega
  | ⟨1, _⟩ => show win1_2.index t (1 : Fin 2) * 128 + 1 * (y 1).val = (y 1).val; rw [e1]; omega

/-- The bias row is staged whole. -/
theorem blk_bias (c : Dev nD) (t : Fin cfg1.N) :
    (iblk1 V c 3 t : FVec Ideal S1x128 .f32) = (V c main_v43 : FVec Ideal S1x128 .f32) := by
  obtain ⟨-, -, -, -, -, -, e0, e1, -⟩ := idx_facts t
  funext y
  unfold iblk1
  rw [View.read_apply]
  show V c main_v43 _ = V c main_v43 _
  refine congrArg (V c main_v43) (funext fun a => Fin.ext ?_)
  match a with
  | ⟨0, _⟩ => show win1_3.index t (0 : Fin 2) * 1 + 1 * (y 0).val = (y 0).val; rw [e0]; omega
  | ⟨1, _⟩ => show win1_3.index t (1 : Fin 2) * 128 + 1 * (y 1).val = (y 1).val; rw [e1]; omega

/-- The root-path weights are staged whole. -/
theorem blk_wr (c : Dev nD) (t : Fin cfg1.N) :
    (iblk1 V c 4 t : FVec Ideal S128x128 .f32) = (V c main_v42 : FVec Ideal S128x128 .f32) := by
  obtain ⟨-, -, -, -, -, -, -, -, e0, e1, -⟩ := idx_facts t
  funext y
  unfold iblk1
  rw [View.read_apply]
  show V c main_v42 _ = V c main_v42 _
  refine congrArg (V c main_v42) (funext fun a => Fin.ext ?_)
  match a with
  | ⟨0, _⟩ => show win1_4.index t (0 : Fin 2) * 128 + 1 * (y 0).val = (y 0).val; rw [e0]; omega
  | ⟨1, _⟩ => show win1_4.index t (1 : Fin 2) * 128 + 1 * (y 1).val = (y 1).val; rw [e1]; omega

/-- Entry (p, q) of point t's result block sits at row 5000·t + p of the result array. -/
theorem emb_out (t : Fin cfg1.N) (p : Fin 5000) (q : Fin 128) (r : Fin 40000) (hr : r.val = t.val * 5000 + p.val) :
    (((cfg1.win 5).blk t).view.emb (ix2 p q) : S40000x128.Idx) = ix2 r q := by
  obtain ⟨-, -, -, -, -, -, -, -, -, -, e0, e1⟩ := idx_facts t
  refine funext fun a => Fin.ext ?_
  match a with
  | ⟨0, _⟩ => show win1_5.index t (0 : Fin 2) * 5000 + 1 * p.val = r.val; rw [e0, hr]; omega
  | ⟨1, _⟩ => show win1_5.index t (1 : Fin 2) * 128 + 1 * q.val = q.val; rw [e1]; omega

/-- The whole result as one function of the five arrays the call finds. -/
abbrev G (c : Dev nD) : S40000x128.Idx → EReal :=
  Cert.Sage.final (V c main_v41 : FVec Ideal S128x128 .f32) (V c main_v42 : FVec Ideal S128x128 .f32)
    (fun j => (V c main_v43 : FVec Ideal S1x128 .f32) (ix2 (0 : Fin 1) j))
    (V c main_v40 : FVec Ideal S40000x128 .f32) (V c main_v28 : FVec Ideal S40000x128 .f32)

theorem lin_congr {WlT WlT' WrT WrT' : (⟨2, ![128, 128]⟩ : Shape).Idx → EReal} {b b' a a' x x' : Fin 128 → EReal}
    (h1 : WlT = WlT') (h2 : WrT = WrT') (h3 : b = b') (h4 : a = a') (h5 : x = x') :
    Cert.Sage.lin WlT WrT b a x = Cert.Sage.lin WlT' WrT' b' a' x' := by rw [h1, h2, h3, h4, h5]

/-- What point t writes back is block t of G. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  have hN : cfg1.N = 8 := N_1
  have hr : ((⟨t.val * 5000 + p.val, by have := t.isLt; have := p.isLt; omega⟩ : Fin 40000)).val = t.val * 5000 + p.val := rfl
  show k1_pay1 (F := Ideal) (iblk1 V c 0 t) (iblk1 V c 1 t) (iblk1 V c 2 t) (iblk1 V c 4 t) (iblk1 V c 3 t) (ix2 p q)
    = G V c (((cfg1.win 5).blk t).view.emb (ix2 p q))
  rw [emb_out t p q _ hr]
  unfold G
  rw [Cert.Sage.final_ix2]
  refine (pay1_apply (iblk1 V c 0 t) (iblk1 V c 1 t) (iblk1 V c 2 t) (iblk1 V c 4 t) (iblk1 V c 3 t) p q).trans ?_
  unfold Cert.Sage.normed
  refine congrArg (fun r : Fin 128 → EReal => Cert.Sage.unitize r q) ?_
  refine lin_congr (blk_wl V c t) (blk_wr V c t) ?_ ?_ ?_
  · exact funext fun j => congrFun (blk_bias V c t) (ix2 (0 : Fin 1) j)
  · exact funext fun k => blk_agg V c t p k _ hr
  · exact funext fun k => blk_feat V c t p k _ hr

/-- An index of the result array is in point t's block iff each coordinate is in the block's range on its axis. -/
theorem mem_blk (t : Fin cfg1.N) (i : S40000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v44).slice (win1_5.rect t)).set ↔ _
  rw [View.set_slice_whole, Rect.mem_set_unit]
  exact Iff.rfl

/-- Row r lies in the block of point r / 5000: the eight blocks tile the array. -/
theorem cover (i : S40000x128.Idx) : ∃ t : Fin cfg1.N, (cfg1.win 5).flush t = true ∧ i ∈ ((cfg1.win 5).blk t).view.set := by
  have hi0 : (i 0).val < 40000 := (i 0).isLt
  have hi1 : (i 1).val < 128 := (i 1).isLt
  have hN : cfg1.N = 8 := N_1
  have hlt : (i 0).val / 5000 < cfg1.N := by rw [hN]; omega
  obtain ⟨-, -, -, -, -, -, -, -, -, -, e0, e1⟩ := idx_facts ⟨(i 0).val / 5000, hlt⟩
  refine ⟨⟨(i 0).val / 5000, hlt⟩, flush1_5 _, ?_⟩
  rw [mem_blk]
  intro a
  match a with
  | ⟨0, _⟩ =>
    show win1_5.index ⟨(i 0).val / 5000, hlt⟩ (0 : Fin 2) * 5000 ≤ (i 0).val ∧ (i 0).val < win1_5.index ⟨(i 0).val / 5000, hlt⟩ (0 : Fin 2) * 5000 + 5000
    rw [e0]
    show (i 0).val / 5000 * 5000 ≤ (i 0).val ∧ (i 0).val < (i 0).val / 5000 * 5000 + 5000
    omega
  | ⟨1, _⟩ =>
    show win1_5.index ⟨(i 0).val / 5000, hlt⟩ (1 : Fin 2) * 128 ≤ (i 1).val ∧ (i 1).val < win1_5.index ⟨(i 0).val / 5000, hlt⟩ (1 : Fin 2) * 128 + 128
    rw [e1]
    omega

/-- The array after the call is G of the arrays it found. -/
theorem result (c : Dev nD) : (dat1 V c).arrAt 5 cfg1.N = G V c :=
  (dat1 V c).arrAt_eq_of_cover 5 (G V c) (fun t _ => flushed_eq V c t) cover

end Cert.KernelIdeal.Region1

end
-- ==== Proof.KHost.lean ====
/-
  What the buffers hold at each boundary of the idealized kernel's @main, as functions of the launch memory.

  Entering the first call: the edge rows, the reciprocal column of floored in-degrees, the neighbourhood mean of x (sum
  times reciprocal), the two transposed weight matrices, the bias as a [1, 128] row. Leaving it: the hidden features
  (Region0.result). Entering the second call: the same graph quantities, the mean of the HIDDEN features, the second
  layer's transposed weights and bias row. Leaving it: the result (Region1.result). Read back through the fold, the
  result's buffer ends at Sage.final of the mean of hidden, with hidden = Sage.hidden of the mean of x.
-/
import proofs.«125775_j67353677136083_1_alg».proof.Proof.Gen.KernelIdeal.Frame
import proofs.«125775_j67353677136083_1_alg».proof.Proof.Graph
import proofs.«125775_j67353677136083_1_alg».proof.Proof.KRegion0
import proofs.«125775_j67353677136083_1_alg».proof.Proof.KRegion1
import Idealize.ShloMosaic.Lib.StableHlo.Run

noncomputable section

namespace Cert.KernelIdeal.Bound

open Cert.KernelIdeal Cert.KernelIdeal.Gen Cert.KernelIdeal.Graph
open Idealize.ShloMosaic Idealize.ShloMosaic.TcCoe Idealize.SL.Sem Idealize.ShloMosaic.StableHlo Idealize.ShloMosaic.ValueIdx
open Idealize.ShloMosaic.Pipeline (Dat)

variable (m : (ℓ : Loc nD τ sig) → Buf (Elt Ideal) ℓ) (ρ : Dev nD → PrngReg)

/-! ## Entering the first call -/

/-- The sources of the edges. -/
theorem in0_src (c : Dev nD) : V1 m ρ c main_v1 = srcRow (m ((c : Thread nD τ).loc main_arg1)) := by
  show StableHlo.after hostOps0 (W0 m ρ c) (Proc.devRef .tc main_v1) = _
  after_results_simp <;> rfl

/-- The destinations of the edges. -/
theorem in0_dst (c : Dev nD) : V1 m ρ c main_v3 = dstRow (m ((c : Thread nD τ).loc main_arg1)) := by
  show StableHlo.after hostOps0 (W0 m ρ c) (Proc.devRef .tc main_v3) = _
  after_results_simp <;> rfl

/-- One over the floored in-degree, as a column. -/
theorem in0_recip (c : Dev nD) : V1 m ρ c main_v12 = recipCol (dstRow (m ((c : Thread nD τ).loc main_arg1))) := by
  show StableHlo.after hostOps0 (W0 m ρ c) (Proc.devRef .tc main_v12) = _
  after_results_simp <;> rfl

set_option maxHeartbeats 2000000 in
/-- The neighbourhood mean of the node features. -/
theorem in0_agg (c : Dev nD) : V1 m ρ c main_v24 = meanMul (srcRow (m ((c : Thread nD τ).loc main_arg1))) (dstRow (m ((c : Thread nD τ).loc main_arg1))) (m ((c : Thread nD τ).loc main_arg0)) := by
  show StableHlo.after hostOps0 (W0 m ρ c) (Proc.devRef .tc main_v24) = _
  after_results_simp <;> rfl

/-- The first layer's neighbour-path weights, transposed. -/
theorem in0_wl (c : Dev nD) : V1 m ρ c main_v25 = transpose S128x128 [1, 0] (m ((c : Thread nD τ).loc main_arg2)) transposes_S128x128_S128x128_1_0 := by
  show StableHlo.after hostOps0 (W0 m ρ c) (Proc.devRef .tc main_v25) = _
  after_results_simp <;> rfl

/-- The first layer's root-path weights, transposed. -/
theorem in0_wr (c : Dev nD) : V1 m ρ c main_v26 = transpose S128x128 [1, 0] (m ((c : Thread nD τ).loc main_arg4)) transposes_S128x128_S128x128_1_0 := by
  show StableHlo.after hostOps0 (W0 m ρ c) (Proc.devRef .tc main_v26) = _
  after_results_simp <;> rfl

/-- The first layer's bias as a row. -/
theorem in0_bias (c : Dev nD) : V1 m ρ c main_v27 = shapeCast S1x128 (m ((c : Thread nD τ).loc main_arg3)) shapeCasts_S128_S1x128 := by
  show StableHlo.after hostOps0 (W0 m ρ c) (Proc.devRef .tc main_v27) = _
  after_results_simp <;> rfl

/-- Argument 0 is not written by the first stretch. -/
theorem in0_arg0 (c : Dev nD) : V1 m ρ c main_arg0 = (m ((c : Thread nD τ).loc main_arg0)) := by
  show StableHlo.after hostOps0 (W0 m ρ c) (Proc.devRef .tc main_arg0) = _
  after_results_simp <;> rfl

/-- Argument 5 is not written by the first stretch. -/
theorem in0_arg5 (c : Dev nD) : V1 m ρ c main_arg5 = (m ((c : Thread nD τ).loc main_arg5)) := by
  show StableHlo.after hostOps0 (W0 m ρ c) (Proc.devRef .tc main_arg5) = _
  after_results_simp <;> rfl

/-- Argument 6 is not written by the first stretch. -/
theorem in0_arg6 (c : Dev nD) : V1 m ρ c main_arg6 = (m ((c : Thread nD τ).loc main_arg6)) := by
  show StableHlo.after hostOps0 (W0 m ρ c) (Proc.devRef .tc main_arg6) = _
  after_results_simp <;> rfl

/-- Argument 7 is not written by the first stretch. -/
theorem in0_arg7 (c : Dev nD) : V1 m ρ c main_arg7 = (m ((c : Thread nD τ).loc main_arg7)) := by
  show StableHlo.after hostOps0 (W0 m ρ c) (Proc.devRef .tc main_arg7) = _
  after_results_simp <;> rfl

/-! ## Leaving the first call -/

/-- The hidden features: the first layer's rectified, normalized update of the neighbourhood mean and the node's own row. -/
def hidden (c : Dev nD) : S40000x128.Idx → EReal :=
  Cert.Sage.hidden (transpose S128x128 [1, 0] (m ((c : Thread nD τ).loc main_arg2)) transposes_S128x128_S128x128_1_0) (transpose S128x128 [1, 0] (m ((c : Thread nD τ).loc main_arg4)) transposes_S128x128_S128x128_1_0) (fun j => shapeCast S1x128 (m ((c : Thread nD τ).loc main_arg3)) shapeCasts_S128_S1x128 (ix2 (0 : Fin 1) j))
    (meanMul (srcRow (m ((c : Thread nD τ).loc main_arg1))) (dstRow (m ((c : Thread nD τ).loc main_arg1))) (m ((c : Thread nD τ).loc main_arg0))) (m ((c : Thread nD τ).loc main_arg0))

/-- The first call leaves the hidden features in its result array. -/
theorem out0 (c : Dev nD) : W2 m ρ c (Proc.devRef .tc main_v28) = hidden m c := by
  refine (W2_arr m ρ c 5).trans ?_
  refine (Cert.KernelIdeal.Region0.result (V1 m ρ) c).trans ?_
  unfold Cert.KernelIdeal.Region0.G hidden
  rw [in0_wl m ρ c, in0_wr m ρ c, in0_bias m ρ c, in0_agg m ρ c, in0_arg0 m ρ c]

/-- The first call does not touch the sources. -/
theorem mid_src (c : Dev nD) : W2 m ρ c (Proc.devRef .tc main_v1) = (srcRow (m ((c : Thread nD τ).loc main_arg1))) :=
  (W2_of_ne m ρ c main_v1 (by decide)).trans (in0_src m ρ c)

/-- The first call does not touch the destinations. -/
theorem mid_dst (c : Dev nD) : W2 m ρ c (Proc.devRef .tc main_v3) = (dstRow (m ((c : Thread nD τ).loc main_arg1))) :=
  (W2_of_ne m ρ c main_v3 (by decide)).trans (in0_dst m ρ c)

/-- The first call does not touch the reciprocal column. -/
theorem mid_recip (c : Dev nD) : W2 m ρ c (Proc.devRef .tc main_v12) = recipCol (dstRow (m ((c : Thread nD τ).loc main_arg1))) :=
  (W2_of_ne m ρ c main_v12 (by decide)).trans (in0_recip m ρ c)

/-- The first call does not touch argument 5. -/
theorem mid_arg5 (c : Dev nD) : W2 m ρ c (Proc.devRef .tc main_arg5) = (m ((c : Thread nD τ).loc main_arg5)) :=
  (W2_of_ne m ρ c main_arg5 (by decide)).trans (in0_arg5 m ρ c)

/-- The first call does not touch argument 6. -/
theorem mid_arg6 (c : Dev nD) : W2 m ρ c (Proc.devRef .tc main_arg6) = (m ((c : Thread nD τ).loc main_arg6)) :=
  (W2_of_ne m ρ c main_arg6 (by decide)).trans (in0_arg6 m ρ c)

/-- The first call does not touch argument 7. -/
theorem mid_arg7 (c : Dev nD) : W2 m ρ c (Proc.devRef .tc main_arg7) = (m ((c : Thread nD τ).loc main_arg7)) :=
  (W2_of_ne m ρ c main_arg7 (by decide)).trans (in0_arg7 m ρ c)

/-! ## Entering the second call -/

/-- The neighbourhood mean of the hidden features. -/
theorem in1_agg (c : Dev nD) : V3 m ρ c main_v40 = meanMul (srcRow (m ((c : Thread nD τ).loc main_arg1))) (dstRow (m ((c : Thread nD τ).loc main_arg1))) (hidden m c) := by
  show StableHlo.after hostOps1 (W2 m ρ c) (Proc.devRef .tc main_v40) = _
  after_results_simp
  rw [mid_src m ρ c, mid_dst m ρ c, mid_recip m ρ c, out0 m ρ c]
  rfl

/-- The second layer's neighbour-path weights, transposed. -/
theorem in1_wl (c : Dev nD) : V3 m ρ c main_v41 = (transpose S128x128 [1, 0] (m ((c : Thread nD τ).loc main_arg5)) transposes_S128x128_S128x128_1_0) := by
  show StableHlo.after hostOps1 (W2 m ρ c) (Proc.devRef .tc main_v41) = _
  after_results_simp
  rw [mid_arg5 m ρ c]

/-- The second layer's root-path weights, transposed. -/
theorem in1_wr (c : Dev nD) : V3 m ρ c main_v42 = (transpose S128x128 [1, 0] (m ((c : Thread nD τ).loc main_arg7)) transposes_S128x128_S128x128_1_0) := by
  show StableHlo.after hostOps1 (W2 m ρ c) (Proc.devRef .tc main_v42) = _
  after_results_simp
  rw [mid_arg7 m ρ c]

/-- The second layer's bias as a row. -/
theorem in1_bias (c : Dev nD) : V3 m ρ c main_v43 = shapeCast S1x128 (m ((c : Thread nD τ).loc main_arg6)) shapeCasts_S128_S1x128 := by
  show StableHlo.after hostOps1 (W2 m ρ c) (Proc.devRef .tc main_v43) = _
  after_results_simp
  rw [mid_arg6 m ρ c]
  rfl

/-- The hidden features are not written by the second stretch. -/
theorem in1_feat (c : Dev nD) : V3 m ρ c main_v28 = hidden m c := by
  show StableHlo.after hostOps1 (W2 m ρ c) (Proc.devRef .tc main_v28) = _
  after_results_simp
  rw [out0 m ρ c]

/-! ## Leaving the second call -/

/-- The result's buffer at the last boundary: the second layer's normalized update of the mean of the hidden features
    and the hidden features. -/
theorem result (c : Dev nD) : W4 m ρ c (Proc.devRef .tc main_v44)
    = Cert.Sage.final (transpose S128x128 [1, 0] (m ((c : Thread nD τ).loc main_arg5)) transposes_S128x128_S128x128_1_0) (transpose S128x128 [1, 0] (m ((c : Thread nD τ).loc main_arg7)) transposes_S128x128_S128x128_1_0) (fun j => shapeCast S1x128 (m ((c : Thread nD τ).loc main_arg6)) shapeCasts_S128_S1x128 (ix2 (0 : Fin 1) j))
        (meanMul (srcRow (m ((c : Thread nD τ).loc main_arg1))) (dstRow (m ((c : Thread nD τ).loc main_arg1))) (hidden m c)) (hidden m c) := by
  refine (W4_arr m ρ c 5).trans ?_
  refine (Cert.KernelIdeal.Region1.result (V3 m ρ) c).trans ?_
  unfold Cert.KernelIdeal.Region1.G
  rw [in1_wl m ρ c, in1_wr m ρ c, in1_bias m ρ c, in1_agg m ρ c, in1_feat m ρ c]

end Cert.KernelIdeal.Bound

end
-- ==== Proof.LibColumns.lean ====
/-
  GENERAL LEMMAS: host broadcasts of a per-row statistic read at coordinates, for any extents a (rows) and b (lanes).

  * column_apply: an [a] vector set up as a column [a, 1] (broadcast_in_dim, dims = [0]) reads, at (p, 0), entry p;
  * spread_apply: a column [a, 1] spread over b lanes (broadcast_in_dim, dims = [0, 1]) reads, at (p, j), the column's
    entry of row p;
  * row_vec_apply: an [n] vector cast to a row [1, n] reads, at (0, j), entry j.
  The well-formedness proof of each operation is a variable, so the lemmas apply to any program's spelling.
-/
import Idealize.ShloMosaic.Lib.ValueLayout
import Idealize.ShloMosaic.Lib.Pipeline.Value

noncomputable section

namespace Cert.LibColumns

open Idealize.ShloMosaic Idealize.ShloMosaic.ValueIdx

variable {α : Type}

/-- A vector set up as a column reads, at (p, 0), the vector's entry p. -/
theorem column_apply {a : ℕ} (h : (⟨1, ![a]⟩ : Shape).BroadcastsInDim ⟨2, ![a, 1]⟩ ![0])
    (v : (⟨1, ![a]⟩ : Shape).Idx → α) (p : Fin a) :
    broadcastInDim ⟨2, ![a, 1]⟩ ![0] h v (ix2 p (0 : Fin 1)) = v (ix1 p) :=
  broadcastInDim_apply _ h v (ix2 p (0 : Fin 1)) (ix1 p) (fun ax => match ax with
    | ⟨0, _⟩ => by
      show p.val = if a = 1 then 0 else p.val
      split
      · have := p.isLt; omega
      · rfl)

/-- A column spread over the lanes reads, at (p, j), the column's entry of row p. -/
theorem spread_apply {a b : ℕ} (h : (⟨2, ![a, 1]⟩ : Shape).BroadcastsInDim ⟨2, ![a, b]⟩ ![0, 1])
    (v : (⟨2, ![a, 1]⟩ : Shape).Idx → α) (p : Fin a) (j : Fin b) :
    broadcastInDim ⟨2, ![a, b]⟩ ![0, 1] h v (ix2 p j) = v (ix2 p (0 : Fin 1)) :=
  broadcastInDim_apply _ h v (ix2 p j) (ix2 p (0 : Fin 1)) (fun ax => match ax with
    | ⟨0, _⟩ => by
      show p.val = if a = 1 then 0 else p.val
      split
      · have := p.isLt; omega
      · rfl
    | ⟨1, _⟩ => by show (0 : ℕ) = if (1 : ℕ) = 1 then 0 else j.val; rw [if_pos rfl])

/-- A vector cast to a one-row matrix reads, at (0, j), the vector's entry j: both list their entries in the same order. -/
theorem row_vec_apply {n : ℕ} (h : (⟨1, ![n]⟩ : Shape).ShapeCasts ⟨2, ![1, n]⟩) (x : (⟨1, ![n]⟩ : Shape).Idx → α) (j : Fin n) :
    shapeCast ⟨2, ![1, n]⟩ x h (ix2 (0 : Fin 1) j) = x (ix1 j) :=
  shapeCast_apply x h _ _ (by
    rw [Shape.rowMajor_val_two, Shape.rowMajor_val_one]
    show j.val = 0 * n + j.val
    omega)

end Cert.LibColumns

end
-- ==== Proof.RefSide.lean ====
/-
  The reference program read as the same two layers.

  Its @main spells a layer with host operations on whole [40000, 128] arrays: two dot_generals and a bias vector
  broadcast to a row and then down the rows (linR); the row norms by a multiply, a sum over the lanes from the zero
  constant, a column, a square root; a floor at ε; a division (unitR); and, after the first layer, a maximum with zero
  (reluR). Read at (p, j) these are Sage.lin / Sage.unitize / Dense.relu of row p. The reference's stages are these
  functions of one another by unfolding, and its neighbourhood mean is Graph.meanDiv of the same gather and scatter.
-/
import proofs.«125775_j67353677136083_1_alg».proof.Proof.Gen.ReferenceIdeal.Read
import proofs.«125775_j67353677136083_1_alg».proof.Proof.Graph
import proofs.«125775_j67353677136083_1_alg».proof.Proof.LibColumns
import Idealize.ShloMosaic.Lib.IdealHost

noncomputable section

namespace Cert.ReferenceIdeal.Layers

open Cert.ReferenceIdeal Cert.ReferenceIdeal.Gen Cert.ReferenceIdeal.Read
open Idealize.ShloMosaic Idealize.ShloMosaic.ValueIdx
open scoped BigOperators

/-- The linear part of a layer as the host spells it. -/
def linR (agg feat : FVec Ideal S40000x128 .f32) (WlT WrT : FVec Ideal S128x128 .f32) (b : FVec Ideal S128 .f32) : FVec Ideal S40000x128 .f32 :=
  addf (addf (Host.dotGeneral (F := Ideal) dot_S40000x128_S128x128_S40000x128_1_0_0_1_n_n none agg WlT)
      (broadcastInDim S40000x128 ![0, 1] bcast_S1x128_S40000x128_0_1 (broadcastInDim S1x128 ![1] bcast_S128_S1x128_1 b)))
    (Host.dotGeneral (F := Ideal) dot_S40000x128_S128x128_S40000x128_1_0_0_1_n_n none feat WrT)

/-- Every row divided by the larger of its norm and ε, as the host spells it. -/
def unitR (v : FVec Ideal S40000x128 .f32) : FVec Ideal S40000x128 .f32 :=
  Host.divf (F := Ideal) v (broadcastInDim S40000x128 ![0, 1] bcast_S40000x1_S40000x128_0_1
    (maximumf
      (Host.sqrt (F := Ideal) (broadcastInDim S40000x1 ![0] bcast_S40000_S40000x1_0
        (Host.reduceAdd (F := Ideal) (mulf v v) (constant (F := Ideal) S_ .f32 0x00000000#32) reducesTo_S40000x128_S40000_d1 h_S_)))
      (broadcastInDim S40000x1 ![] bcast_S_S40000x1 (constant (F := Ideal) S_ .f32 0x2B8CBCCC#32))))

/-- The rectifier as the host spells it. -/
def reluR (v : FVec Ideal S40000x128 .f32) : FVec Ideal S40000x128 .f32 :=
  maximumf v (broadcastInDim S40000x128 ![] bcast_S_S40000x128 (constant (F := Ideal) S_ .f32 0x00000000#32))

theorem linR_apply (agg feat : FVec Ideal S40000x128 .f32) (WlT WrT : FVec Ideal S128x128 .f32) (b : FVec Ideal S128 .f32)
    (p : Fin 40000) (j : Fin 128) :
    linR agg feat WlT WrT b (ix2 p j)
      = Cert.Sage.lin WlT WrT (fun j => b (ix1 j)) (fun k => agg (ix2 p k)) (fun k => feat (ix2 p k)) j := by
  unfold linR Cert.Sage.lin
  rw [addf_apply]
  refine congrArg₂ (· + ·) ?_ ?_
  · exact Cert.Dense.host_affine dot_S40000x128_S128x128_S40000x128_1_0_0_1_n_n rfl rfl lhs_main_v24_0 lhs_main_v24_1 rhs_main_v24_0 rhs_main_v24_1 agg WlT b
      bcast_S128_S1x128_1 bcast_S1x128_S40000x128_0_1 p j
  · refine (Ideal.dotGeneral_apply dot_S40000x128_S128x128_S40000x128_1_0_0_1_n_n none .single feat WrT (ix2 p j)).trans ?_
    exact Cert.Dense.contraction_rows dot_S40000x128_S128x128_S40000x128_1_0_0_1_n_n rfl rfl lhs_main_v24_0 lhs_main_v24_1 rhs_main_v24_0 rhs_main_v24_1 feat WrT p j

/-- The lane sum from the zero constant, read at row p: the sum of the row's entries. -/
theorem rowSum_apply (w : FVec Ideal S40000x128 .f32) (p : Fin 40000) :
    Host.reduceAdd (F := Ideal) w (constant (F := Ideal) S_ .f32 0x00000000#32) reducesTo_S40000x128_S40000_d1 h_S_ (ix1 p)
      = ∑ k : Fin 128, w (ix2 p k) := by
  simp only [Host.reduceAdd, Ideal.hostReduceAdd_def]
  rw [Ideal.hostReduceAdd_single reducesTo_S40000x128_S40000_d1 (by decide), constant_apply, Ideal.ofBits_zero_f32, zero_add]
  refine Finset.sum_congr rfl fun k _ => ?_
  exact congrArg w (funext fun a => Fin.ext (by match a with | ⟨0, _⟩ => rfl | ⟨1, _⟩ => rfl))

theorem unitR_apply (v : FVec Ideal S40000x128 .f32) (p : Fin 40000) (j : Fin 128) :
    unitR v (ix2 p j) = Cert.Sage.unitize (fun k => v (ix2 p k)) j := by
  unfold unitR Cert.Sage.unitize
  rw [hostDivf_apply, Cert.LibColumns.spread_apply, maximumf_apply, broadcastInDim_scalar_apply, constant_apply]
  simp only [Host.sqrt, Ideal.hostUnary_sqrt_def]
  refine congrArg (fun s => Ideal.div (v (ix2 p j)) (max (Ideal.sqrt s) (Ideal.ofBits .f32 0x2B8CBCCC#32))) ?_
  refine (Cert.LibColumns.column_apply bcast_S40000_S40000x1_0 _ p).trans ?_
  exact rowSum_apply (mulf v v) p

theorem reluR_apply (v : FVec Ideal S40000x128 .f32) (p : Fin 40000) (j : Fin 128) :
    reluR v (ix2 p j) = Cert.Dense.relu (fun j => v (ix2 p j)) j :=
  Cert.Dense.relu_host v bcast_S_S40000x128 p j

/-! ## The reference's stages are these functions of one another -/

open Cert.KernelIdeal.Graph in
/-- The first layer's neighbourhood mean: the gathered, scattered sum over the floored in-degree. -/
theorem stage_mean1 (x0 : (⟨S40000x128, .f32⟩ : BufTy).Contents (Elt Ideal)) (x1 : (⟨S2x640000, .i32⟩ : BufTy).Contents (Elt Ideal)) :
    val_main_v22 (F := Ideal) x0 x1 = meanDiv (srcRow x1) (dstRow x1) x0 := rfl

/-- The hidden features. -/
theorem stage_hidden (x0 : (⟨S40000x128, .f32⟩ : BufTy).Contents (Elt Ideal)) (x1 : (⟨S2x640000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) :
    val_main_v36 (F := Ideal) x0 x1 x2 x3 x4
      = reluR (unitR (linR (val_main_v22 (F := Ideal) x0 x1) x0 (val_main_v23 (F := Ideal) x2) (val_main_v28 (F := Ideal) x4) x3)) := rfl

open Cert.KernelIdeal.Graph in
/-- The second layer's neighbourhood mean, of the hidden features. -/
theorem stage_mean2 (x0 : (⟨S40000x128, .f32⟩ : BufTy).Contents (Elt Ideal)) (x1 : (⟨S2x640000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) :
    val_main_v55 (F := Ideal) x0 x1 x2 x3 x4 = meanDiv (srcRow x1) (dstRow x1) (val_main_v36 (F := Ideal) x0 x1 x2 x3 x4) := rfl

/-- The result. -/
theorem stage_out (x0 : (⟨S40000x128, .f32⟩ : BufTy).Contents (Elt Ideal)) (x1 : (⟨S2x640000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) :
    val_main_v68 (F := Ideal) x0 x1 x2 x3 x4 x5 x6 x7
      = unitR (linR (val_main_v55 (F := Ideal) x0 x1 x2 x3 x4) (val_main_v36 (F := Ideal) x0 x1 x2 x3 x4)
          (val_main_v56 (F := Ideal) x5) (val_main_v61 (F := Ideal) x7) x6) := rfl

/-! ## The reference's two layers, as whole-array functions -/

open Cert.KernelIdeal.Graph in
/-- The reference's hidden features are Sage.hidden of the divided mean of x and x. -/
theorem hidden_eq (x0 : (⟨S40000x128, .f32⟩ : BufTy).Contents (Elt Ideal)) (x1 : (⟨S2x640000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) :
    val_main_v36 (F := Ideal) x0 x1 x2 x3 x4
      = Cert.Sage.hidden (val_main_v23 (F := Ideal) x2) (val_main_v28 (F := Ideal) x4) (fun j => x3 (ix1 j))
          (meanDiv (srcRow x1) (dstRow x1) x0) x0 := by
  funext i
  obtain ⟨p, j, rfl⟩ : ∃ (p : Fin 40000) (j : Fin 128), i = ix2 p j := ⟨i 0, i 1, eq_ix2 i⟩
  rw [stage_hidden, reluR_apply, Cert.Sage.hidden_ix2, stage_mean1]
  unfold Cert.Sage.normed
  refine congrArg (fun r : Fin 128 → EReal => Cert.Dense.relu r j) ?_
  funext k
  rw [unitR_apply]
  refine congrArg (fun r : Fin 128 → EReal => Cert.Sage.unitize r k) ?_
  funext k'
  exact linR_apply _ _ _ _ _ p k'

open Cert.KernelIdeal.Graph in
/-- The reference's result is Sage.final of the divided mean of its hidden features and the hidden features. -/
theorem out_eq (x0 : (⟨S40000x128, .f32⟩ : BufTy).Contents (Elt Ideal)) (x1 : (⟨S2x640000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) :
    val_main_v68 (F := Ideal) x0 x1 x2 x3 x4 x5 x6 x7
      = Cert.Sage.final (val_main_v56 (F := Ideal) x5) (val_main_v61 (F := Ideal) x7) (fun j => x6 (ix1 j))
          (meanDiv (srcRow x1) (dstRow x1) (val_main_v36 (F := Ideal) x0 x1 x2 x3 x4)) (val_main_v36 (F := Ideal) x0 x1 x2 x3 x4) := by
  funext i
  obtain ⟨p, j, rfl⟩ : ∃ (p : Fin 40000) (j : Fin 128), i = ix2 p j := ⟨i 0, i 1, eq_ix2 i⟩
  rw [stage_out, unitR_apply, Cert.Sage.final_ix2, stage_mean2]
  unfold Cert.Sage.normed
  refine congrArg (fun r : Fin 128 → EReal => Cert.Sage.unitize r j) ?_
  funext k
  exact linR_apply _ _ _ _ _ p k

end Cert.ReferenceIdeal.Layers

end
-- ==== Proof.Bridge.lean ====
/-
  Both programs end at ONE function of the eight arguments.

  target: final (mean of hidden, hidden) with hidden = hidden-layer (mean of x, x), the mean the DIVIDED one, the bias
  vectors read directly. The kernel's program ends at the same expression with the mean spelt as a product with the
  reciprocal (Graph.mean_eq joins them) and the bias read through a [1, 128] row (the same entries); the reference ends
  at it with its own names for the transposed weights (the same arrays).
-/
import proofs.«125775_j67353677136083_1_alg».proof.Proof.KHost
import proofs.«125775_j67353677136083_1_alg».proof.Proof.RefSide

noncomputable section

namespace Cert.Bridge

open Cert.KernelIdeal Cert.KernelIdeal.Gen Cert.KernelIdeal.Graph
open Idealize.ShloMosaic Idealize.ShloMosaic.TcCoe Idealize.SL.Sem Idealize.ShloMosaic.ValueIdx

/-- A weight matrix transposed, as both programs' host code does before the products. -/
abbrev tr (w : (⟨S128x128, .f32⟩ : BufTy).Contents (Elt Ideal)) : FVec Ideal S128x128 .f32 := transpose S128x128 [1, 0] w transposes_S128x128_S128x128_1_0

/-- The hidden features as a function of the first five arguments. -/
def hid (x0 : (⟨S40000x128, .f32⟩ : BufTy).Contents (Elt Ideal)) (x1 : (⟨S2x640000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) : S40000x128.Idx → EReal :=
  Cert.Sage.hidden (tr x2) (tr x4) (fun j => x3 (ix1 j)) (meanDiv (srcRow x1) (dstRow x1) x0) x0

/-- The result as a function of the eight arguments. -/
def target (x0 : (⟨S40000x128, .f32⟩ : BufTy).Contents (Elt Ideal)) (x1 : (⟨S2x640000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) : S40000x128.Idx → EReal :=
  Cert.Sage.final (tr x5) (tr x7) (fun j => x6 (ix1 j)) (meanDiv (srcRow x1) (dstRow x1) (hid x0 x1 x2 x3 x4)) (hid x0 x1 x2 x3 x4)

/-- The bias read through its [1, 128] row is the bias vector. -/
theorem bias_row (b : (⟨S128, .f32⟩ : BufTy).Contents (Elt Ideal)) :
    (fun j : Fin 128 => shapeCast S1x128 b shapeCasts_S128_S1x128 (ix2 (0 : Fin 1) j)) = fun j => b (ix1 j) :=
  funext fun j => Cert.LibColumns.row_vec_apply shapeCasts_S128_S1x128 b j

variable (m : (ℓ : Loc nD τ sig) → Buf (Elt Ideal) ℓ) (ρ : Dev nD → PrngReg)

/-- The kernel's hidden features are hid of the launch memory's arguments. -/
theorem kernel_hidden (c : Dev nD) :
    Cert.KernelIdeal.Bound.hidden m c = hid (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) := by
  unfold Cert.KernelIdeal.Bound.hidden hid
  rw [bias_row, mean_eq]

/-- The result's buffer at the kernel's last boundary is target of the launch memory's arguments. -/
theorem kernel_value (c : Dev nD) :
    W4 m ρ c (Proc.devRef .tc main_v44) = target (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) := by
  rw [Cert.KernelIdeal.Bound.result m ρ c, kernel_hidden m c]
  unfold target
  rw [bias_row, mean_eq]

/-- The reference's result term is target of its arguments. -/
theorem ref_value (x0 : (⟨S40000x128, .f32⟩ : BufTy).Contents (Elt Ideal)) (x1 : (⟨S2x640000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) :
    Cert.ReferenceIdeal.Read.val_main_v68 (F := Ideal) x0 x1 x2 x3 x4 x5 x6 x7 = target x0 x1 x2 x3 x4 x5 x6 x7 := by
  rw [Cert.ReferenceIdeal.Layers.out_eq, Cert.ReferenceIdeal.Layers.hidden_eq]
  rfl

end Cert.Bridge

end
-- ==== Proof.lean ====
/-
  A two-layer GraphSAGE forward pass: a Pallas kernel per layer (the dense update of every node, tiled over 5000-row
  blocks) with the graph gather and scatter on the host, against a plain jnp reference.

  At the exact instance both programs compute, for every node p,
      hidden p = relu (unitize (mean(x) p · Wl1ᵀ + bl1 + x p · Wr1ᵀ)),
      out p    = unitize (mean(hidden) p · Wl2ᵀ + bl2 + hidden p · Wr2ᵀ),
  unitize v = v / max(‖v‖₂, ε), mean(f) p = (sum of f's rows over p's in-edges) / max(in-degree p, 1).
  They differ in one spelling: the kernel's program multiplies the sum by 1 / max(in-degree, 1) where the reference
  divides by max(in-degree, 1). Since max(·, 1) ≥ 1 is never zero, both are the sum times the inverse of the divisor
  on every extended real (Sage.mul_recip_eq_div): no finiteness of the inputs is used. The kernel's rounding of the
  matrix-unit operands to bf16 is the identity at this instance, its products into zero accumulators and its lane sums
  are plain sums, as are the reference's dot_general and reduce.

  frame_Kernel, frame_KernelIdeal: the generated frames. frame_ReferenceIdeal: the reference's generated run with the
  result dropped. preserves: the idealization rewrote nothing. algebraic: the kernel's run with its result named
  (Whole.run), read back through its four segments to Bridge.target of the arguments (Bridge.kernel_value), beside
  the reference's run, whose result term is the same function (Bridge.ref_value) of arguments that agree.
-/
import proofs.«125775_j67353677136083_1_alg».proof.Defs
import proofs.«125775_j67353677136083_1_alg».proof.Proof.Gen.Kernel
import proofs.«125775_j67353677136083_1_alg».proof.Proof.Gen.Kernel.Skeleton
import proofs.«125775_j67353677136083_1_alg».proof.Proof.Gen.Kernel.Launch
import proofs.«125775_j67353677136083_1_alg».proof.Proof.Gen.Kernel.Points
import proofs.«125775_j67353677136083_1_alg».proof.Proof.Gen.Kernel.Frame
import proofs.«125775_j67353677136083_1_alg».proof.Proof.Gen.KernelIdeal
import proofs.«125775_j67353677136083_1_alg».proof.Proof.Gen.KernelIdeal.Skeleton
import proofs.«125775_j67353677136083_1_alg».proof.Proof.Gen.KernelIdeal.Launch
import proofs.«125775_j67353677136083_1_alg».proof.Proof.Gen.KernelIdeal.Points
import proofs.«125775_j67353677136083_1_alg».proof.Proof.Gen.KernelIdeal.Frame
import proofs.«125775_j67353677136083_1_alg».proof.Proof.Gen.ReferenceIdeal
import proofs.«125775_j67353677136083_1_alg».proof.Proof.Gen.Pre_finite_inputs
import Idealize.ShloMosaic.Adequacy
import Idealize.ShloMosaic.Init
import proofs.«125775_j67353677136083_1_alg».proof.Proof.Gen.ReferenceIdeal.Run
import proofs.«125775_j67353677136083_1_alg».proof.Proof.Gen.ReferenceIdeal.Read
import proofs.«125775_j67353677136083_1_alg».proof.Proof.KRun
import proofs.«125775_j67353677136083_1_alg».proof.Proof.Bridge

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end at Bridge.target of the argument arrays. -/
theorem algebraic : Cert.algebraic_KernelIdeal_ReferenceIdeal := by
  intro m ρ m' ρ' _ hagree
  refine ⟨fun c => Cert.Bridge.target (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.Bridge.kernel_value m ρ c), (h c).2⟩)
      (Cert.KernelIdeal.Whole.run (F := Ideal) m ρ)
  · refine (θ_run Cert.ReferenceIdeal.defs _ _).mono (fun _ h c => ⟨?_, (h c).2⟩)
      (Cert.ReferenceIdeal.Value.run (F := Ideal) m' ρ')
    obtain ⟨e0, e1, e2, e3, e4, e5, e6, e7⟩ := hagree c
    rw [(h c).1, Cert.ReferenceIdeal.Read.val_main_v68_eq, Cert.Bridge.ref_value, e0, e1, e2, e3, e4, e5, e6, e7]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
